-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61_1)) (v1 : (c : Dev Cert.KernelIdeal.nD) → Buf (Elt Ideal) ((c.tc : Thread Cert.KernelIdeal.nD Cert.KernelIdeal.τ).loc Cert.KernelIdeal.main_v61_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_1) = v0 c
          ∧ r.2.mem ((c.tc : Thread Cert.KernelIdeal.nD Cert.KernelIdeal.τ).loc Cert.KernelIdeal.main_v61_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64 .f32) (main_arg6 : FVec F S64x40 .f32) (main_arg7 : FVec F S40 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S64x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S1x40 : Shape := ⟨2, ![1, 40]⟩
abbrev S100000x40 : Shape := ⟨2, ![100000, 40]⟩
abbrev S10000x40 : Shape := ⟨2, ![10000, 40]⟩
abbrev S10000 : Shape := ⟨1, ![10000]⟩
abbrev S10000x1 : Shape := ⟨2, ![10000, 1]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x64, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x1, .f32⟩
  | .hbm, ⟨77, _⟩ => ⟨S1700000x64, .f32⟩
  | .hbm, ⟨78, _⟩ => ⟨S1700000x64, .f32⟩
  | .hbm, ⟨79, _⟩ => ⟨S_, .f32⟩
  | .hbm, ⟨80, _⟩ => ⟨S100000x64, .f32⟩
  | .hbm, ⟨81, _⟩ => ⟨S1700000x1, .i32⟩
  | .hbm, ⟨82, _⟩ => ⟨S100000x64, .f32⟩
  | .hbm, ⟨83, _⟩ => ⟨S1x64, .f32⟩
  | .hbm, ⟨84, _⟩ => ⟨S1x40, .f32⟩
  | .hbm, ⟨85, _⟩ => ⟨S100000x64, .f32⟩
  | .hbm, ⟨86, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x40, .f32⟩
  | .local _ .vmem, ⟨15, _⟩ => ⟨S1x40, .f32⟩
  | .local _ .vmem, ⟨16, _⟩ => ⟨S10000x64, .f32⟩
  | .local _ .vmem, ⟨17, _⟩ => ⟨S10000x64, .f32⟩
  | .local _ .vmem, ⟨18, _⟩ => ⟨S10000x40, .f32⟩
  | .local _ .vmem, ⟨19, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61_0 : Ref sig .tc := ⟨.hbm, 85, rfl⟩
abbrev main_v61_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S10000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S40_S1x40 : S40.ShapeCasts S1x40
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x40_S10000x40_1_0_0_1_n_n_wf : DotDims.WF S10000x64 S64x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x40.size a ≤ S64x40.size a
  hwx2_2 : ∀ i : grid2.Coords, EltTy.bits .f32 = 32 ∨ (Rect.block (s := S64x40) S64x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x40.size a ≤ S100000x40.size a
  hwx2_5 : ∀ i : grid2.Coords, EltTy.bits .f32 = 32 ∨ (Rect.block (s := S100000x40) S10000x40.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61_0) S10000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v61_1) S10000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 110
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S100000x40, .f32⟩
  | .hbm, ⟨92, _⟩ => ⟨S1x40, .f32⟩
  | .hbm, ⟨93, _⟩ => ⟨S100000x40, .f32⟩
  | .hbm, ⟨94, _⟩ => ⟨S100000x40, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S100000x1, .f32⟩
  | .hbm, ⟨101, _⟩ => ⟨S100000x40, .f32⟩
  | .hbm, ⟨102, _⟩ => ⟨S100000x40, .f32⟩
  | .hbm, ⟨103, _⟩ => ⟨S100000x40, .f32⟩
  | .hbm, ⟨104, _⟩ => ⟨S_, .f32⟩
  | .hbm, ⟨105, _⟩ => ⟨S100000, .f32⟩
  | .hbm, ⟨106, _⟩ => ⟨S100000x1, .f32⟩
  | .hbm, ⟨107, _⟩ => ⟨S100000x1, .f32⟩
  | .hbm, ⟨108, _⟩ => ⟨S100000x40, .f32⟩
  | .hbm, ⟨109, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call2_cst : Ref sig .tc := ⟨.hbm, 95, rfl⟩
abbrev main_call2_v0 : Ref sig .tc := ⟨.hbm, 96, rfl⟩
abbrev main_call2_cst_0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_cst_1 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_v69 : Ref sig .tc := ⟨.hbm, 109, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KernelRun.lean ====
/-
  The idealized kernel program's run, with every buffer after the run named.

  The program is three grid kernels among stretches of host operations. Its frame run already follows the buffers'
  contents from the launch memory through each stretch and each kernel's write-backs to a last valuation; here that
  run is stated once more with the whole last valuation in its post, so that the two result arrays can be read off it:
  each is an output array of the third kernel, what that kernel's write-backs leave.
-/
import proofs.«161931_j5781025980782_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in every final state each buffer that
    outlives the kernels holds what the last valuation of the run gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run with the two results named: the log-probabilities are the third kernel's second output array after its
    write-backs, the embedding its first; the arguments end as launched. -/
theorem run_results : θ_run defs (onTc (τ := τ) (main (F := F))) ⟨m, fun _ => 0, ρ⟩ (fun r => ∀ c : Dev nD,
      r.2.mem ((c.tc : Thread nD τ).loc main_v61_1) = (dat2 (V7 m ρ) c).arrAt 5 cfg2.N
      ∧ r.2.mem ((c.tc : Thread nD τ).loc main_v61_0) = (dat2 (V7 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ (mem_uc main_v61_1 (by decide))).trans (W8_arr m ρ c 5),
       (h c _ (mem_uc main_v61_0 (by decide))).trans (W8_arr m ρ c 4),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)
    (run_all m ρ)

end Cert.KernelIdeal.KernelRun

end
-- ==== Proof.Stages.lean ====
/-
  The host stages of the graph convolution that the kernel program and the reference both run, as functions of arrays.

  From the edge list [2, E] (row 0 the sources, row 1 the targets; the N self loops appended to both):
    `srcIdx`, `dstIdx`  — the two index vectors of length E + N;
    `degree`           — the number of edges into each node (a scatter-add of ones);
    `dinv`             — degree^(-1/2) where the degree is positive, zero elsewhere;
    `edgeNorm`         — per edge, dinv at its source times dinv at its target (negative indices wrapped first).
  For node features h:
    `agg128 h s d n`, `agg64 h s d n` — per target node, the sum over its incoming edges of the source's row of h
                          scaled by the edge's norm (gather the source rows, scale, scatter-add onto the targets).
  Both programs apply these same terms; only the dense stages between them are computed differently, so the
  aggregation is never opened.
-/
import proofs.«161931_j5781025980782_1_alg».proof.Proof.Gen.ReferenceIdeal

noncomputable section

namespace Cert.Stages

open Cert.ReferenceIdeal Cert.ReferenceIdeal.Gen Idealize.ShloMosaic

variable {F : FTy → Type} [FloatOps F]

/-- The edges' sources followed by the nodes themselves (the self loops). -/
def srcIdx (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' targets followed by the nodes themselves. -/
def dstIdx (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The in-degree of every node, self loop included: ones scattered onto the targets. -/
def degree (ei : IVec S2x1600000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 (dstIdx ei)) (broadcastInDim S1700000 ![] bcast_S_S1700000 (constant S_ .f32 0x3F800000#32))

/-- degree^(-1/2) where the degree is positive, zero elsewhere. -/
def dinv (ei : IVec S2x1600000 32) : FVec F S100000 .f32 :=
  select (cmpf .ogt (degree (F := F) ei) (broadcastInDim S100000 ![] bcast_S_S100000 (constant S_ .f32 0x00000000#32))) (Host.rsqrt (degree (F := F) ei)) (broadcastInDim S100000 ![] bcast_S_S100000 (id (constant (F := F) S_ .f32 0x00000000#32)))

/-- An index vector with its negative entries moved up by the number of nodes. -/
def wrap (s : IVec S1700000 32) : IVec S1700000 32 :=
  select (cmpi .slt s (broadcastInDim S1700000 ![] bcast_S_S1700000 (constantI S_ 32 0#32))) (addi s (broadcastInDim S1700000 ![] bcast_S_S1700000 (constantI S_ 32 100000#32))) s

/-- Per edge, dinv at its source times dinv at its target. -/
def edgeNorm (ei : IVec S2x1600000 32) : FVec F S1700000 .f32 :=
  mulf (Host.gather gather_S100000_S1700000x1_S1700000_n_0_n_n_0_1_1 (dinv (F := F) ei) (broadcastInDim S1700000x1 ![0] bcast_S1700000_S1700000x1_0 (wrap (srcIdx ei)))) (Host.gather gather_S100000_S1700000x1_S1700000_n_0_n_n_0_1_1 (dinv (F := F) ei) (broadcastInDim S1700000x1 ![0] bcast_S1700000_S1700000x1_0 (wrap (dstIdx ei))))

/-- The normalized aggregation of 128-wide node features over the edges. -/
def agg128 (h : FVec F S100000x128 .f32) (s d : IVec S1700000 32) (n : FVec F S1700000 .f32) : FVec F S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (broadcastInDim S1700000x1 ![0] bcast_S1700000_S1700000x1_0 (wrap s))) (broadcastInDim S1700000x128 ![0, 1] bcast_S1700000x1_S1700000x128_0_1 (broadcastInDim S1700000x1 ![0] bcast_S1700000_S1700000x1_0 n)))

/-- The normalized aggregation of 64-wide node features over the edges. -/
def agg64 (h : FVec F S100000x64 .f32) (s d : IVec S1700000 32) (n : FVec F S1700000 .f32) : FVec F S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 h (broadcastInDim S1700000x1 ![0] bcast_S1700000_S1700000x1_0 (wrap s))) (broadcastInDim S1700000x64 ![0, 1] bcast_S1700000x1_S1700000x64_0_1 (broadcastInDim S1700000x1 ![0] bcast_S1700000_S1700000x1_0 n)))

end Cert.Stages

end
-- ==== Proof.LibJoinPair.lean ====
/-
  Two arrays joined along an axis, with the side condition stated of the shapes alone.

  The joined array `concatenate t a [⟨s₁, x₁⟩, ⟨s₂, x₂⟩] h` carries a side condition `h` whose statement mentions the list
  of (shape, array) pairs, although it only reads the shapes. That dependence stands in the way of rewriting the two
  arrays in place: a rewriting pass keeps the whole list fixed. `joinPair` is the same function with the side condition
  stated of `[s₁, s₂]`; the two are equal by unfolding, for any element type, any shapes and any axis. Rewriting a
  two-piece join to `joinPair` lets a later pass reach the two arrays.
-/
import Idealize.ShloMosaic.PureOps.ShapeOps

noncomputable section

namespace Cert.JoinPair

open Idealize.ShloMosaic

/-- Two arrays joined along axis `a` of the result shape `t`. -/
def joinPair {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A two-piece join is `joinPair` of its pieces: a rewrite rule from the list form to the form whose arrays can be
    rewritten. -/
theorem concatenate_pair_eq {α : Type} (t : Shape) (a : Fin t.rank) (s₁ s₂ : Shape) (x₁ : s₁.Idx → α) (x₂ : s₂.Idx → α)
    (h : Shape.Concatenates (List.map (fun p : (s : Shape) × (s.Idx → α) => p.1) [⟨s₁, x₁⟩, ⟨s₂, x₂⟩]) t a) :
    concatenate t a [⟨s₁, x₁⟩, ⟨s₂, x₂⟩] h = joinPair t a s₁ s₂ h x₁ x₂ := rfl

end Cert.JoinPair

end
-- ==== Proof.LibTypedRef.lean ====
/-
  A buffer reference that carries the type of the tensor value it holds moves contents between "the value's type" and
  "the buffer's own type" along the equation between the two. Going one way and then back is the identity, for any
  such reference: the two transports are along an equation and its inverse.
-/
import Idealize.ShloMosaic.Lib.StableHlo

namespace Cert.TypedRef

open Idealize.ShloMosaic Idealize.ShloMosaic.StableHlo

/-- To the buffer's type and back is the identity. -/
theorem ofBuf_toBuf {sig : RefSig} {T : BufTy} {Val : EltTy → Type} (x : TRef sig T) (v : T.Contents Val) :
    x.ofBuf (x.toBuf v) = v := by
  unfold TRef.ofBuf TRef.toBuf
  simp

end Cert.TypedRef
-- ==== Proof.Chain.lean ====
/-
  The buffers the kernel program's three kernels are entered with, read back through the host stretches to the arguments.

  The run's valuations W3 … W7 hold the buffer contents at the kernels' entries and exits. Between the kernels the host
  operations are the shared stages: the edge indices and norms are computed once before the first kernel and reach the
  later stretches unchanged; each aggregation gathers, scales and scatter-adds the preceding kernel's output; each bias
  vector is recast as a row. A kernel's exit valuation changes only that kernel's own arrays.
-/
import proofs.«161931_j5781025980782_1_alg».proof.Proof.Gen.KernelIdeal.Frame
import proofs.«161931_j5781025980782_1_alg».proof.Proof.Stages
import proofs.«161931_j5781025980782_1_alg».proof.Proof.LibJoinPair
import proofs.«161931_j5781025980782_1_alg».proof.Proof.LibTypedRef

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- Reads a buffer through a stretch of host operations: each operation's result at its own buffer, any other buffer
    as it was; a two-piece join is restated so that its pieces are read too; a typed reference's casts cancel. -/
macro "read_stretch" : tactic =>
  `(tactic| (first
      | (after_results_simp; done)
      | (after_results_simp <;> rfl)
      | (after_results_simp; simp only [Cert.JoinPair.concatenate_pair_eq]; after_results_simp; simp only [Cert.TypedRef.ofBuf_toBuf]; rfl)
      | (after_results_simp; simp only [Cert.JoinPair.concatenate_pair_eq]; after_results_simp; rfl)
      | (after_results_simp; simp only [Cert.TypedRef.ofBuf_toBuf]; rfl)))

/-! ## Before the first kernel -/

set_option maxRecDepth 8192 in
theorem W3_src : W3 m ρ c (Proc.devRef .tc main_v3) = Cert.Stages.srcIdx (m ((c : Thread nD τ).loc main_arg1)) := by
  dsimp only [W3, W2, W1, hostOps0, hostOps0_1, hostOps0_2]; read_stretch
set_option maxRecDepth 8192 in
theorem W3_dst : W3 m ρ c (Proc.devRef .tc main_v6) = Cert.Stages.dstIdx (m ((c : Thread nD τ).loc main_arg1)) := by
  dsimp only [W3, W2, W1, hostOps0, hostOps0_1, hostOps0_2]; read_stretch
set_option maxRecDepth 8192 in
set_option maxHeartbeats 2000000 in
theorem W3_norm : W3 m ρ c (Proc.devRef .tc main_v29) = Cert.Stages.edgeNorm (F := F) (m ((c : Thread nD τ).loc main_arg1)) := by
  dsimp only [W3, W2, W1, hostOps0, hostOps0_1, hostOps0_2]; read_stretch
set_option maxRecDepth 8192 in
theorem W3_arg0 : W3 m ρ c (Proc.devRef .tc main_arg0) = m ((c : Thread nD τ).loc main_arg0) := by
  dsimp only [W3, W2, W1, hostOps0, hostOps0_1, hostOps0_2]; read_stretch
set_option maxRecDepth 8192 in
theorem W3_arg2 : W3 m ρ c (Proc.devRef .tc main_arg2) = m ((c : Thread nD τ).loc main_arg2) := by
  dsimp only [W3, W2, W1, hostOps0, hostOps0_1, hostOps0_2]; read_stretch
set_option maxRecDepth 8192 in
theorem W3_arg3 : W3 m ρ c (Proc.devRef .tc main_arg3) = m ((c : Thread nD τ).loc main_arg3) := by
  dsimp only [W3, W2, W1, hostOps0, hostOps0_1, hostOps0_2]; read_stretch
set_option maxRecDepth 8192 in
theorem W3_arg4 : W3 m ρ c (Proc.devRef .tc main_arg4) = m ((c : Thread nD τ).loc main_arg4) := by
  dsimp only [W3, W2, W1, hostOps0, hostOps0_1, hostOps0_2]; read_stretch
set_option maxRecDepth 8192 in
theorem W3_arg5 : W3 m ρ c (Proc.devRef .tc main_arg5) = m ((c : Thread nD τ).loc main_arg5) := by
  dsimp only [W3, W2, W1, hostOps0, hostOps0_1, hostOps0_2]; read_stretch
set_option maxRecDepth 8192 in
theorem W3_arg6 : W3 m ρ c (Proc.devRef .tc main_arg6) = m ((c : Thread nD τ).loc main_arg6) := by
  dsimp only [W3, W2, W1, hostOps0, hostOps0_1, hostOps0_2]; read_stretch
set_option maxRecDepth 8192 in
theorem W3_arg7 : W3 m ρ c (Proc.devRef .tc main_arg7) = m ((c : Thread nD τ).loc main_arg7) := by
  dsimp only [W3, W2, W1, hostOps0, hostOps0_1, hostOps0_2]; read_stretch

/-! ## Between the first and the second kernel -/

set_option maxRecDepth 8192 in
/-- The second kernel's features: the first kernel's output aggregated over the edges. -/
theorem W5_agg : W5 m ρ c (Proc.devRef .tc main_v43)
    = Cert.Stages.agg128 (W4 m ρ c (Proc.devRef .tc main_v30)) (W4 m ρ c (Proc.devRef .tc main_v3)) (W4 m ρ c (Proc.devRef .tc main_v6)) (W4 m ρ c (Proc.devRef .tc main_v29)) := by
  dsimp only [W5, hostOps1]; read_stretch
set_option maxRecDepth 8192 in
/-- The second kernel's bias row: the vector recast. -/
theorem W5_row : W5 m ρ c (Proc.devRef .tc main_v44) = shapeCast S1x128 (W4 m ρ c (Proc.devRef .tc main_arg3)) shapeCasts_S128_S1x128 := by
  dsimp only [W5, hostOps1]; read_stretch
set_option maxRecDepth 8192 in
theorem W5_main_arg4 : W5 m ρ c (Proc.devRef .tc main_arg4) = W4 m ρ c (Proc.devRef .tc main_arg4) := by
  dsimp only [W5, hostOps1]; read_stretch
set_option maxRecDepth 8192 in
theorem W5_main_v3 : W5 m ρ c (Proc.devRef .tc main_v3) = W4 m ρ c (Proc.devRef .tc main_v3) := by
  dsimp only [W5, hostOps1]; read_stretch
set_option maxRecDepth 8192 in
theorem W5_main_v6 : W5 m ρ c (Proc.devRef .tc main_v6) = W4 m ρ c (Proc.devRef .tc main_v6) := by
  dsimp only [W5, hostOps1]; read_stretch
set_option maxRecDepth 8192 in
theorem W5_main_v29 : W5 m ρ c (Proc.devRef .tc main_v29) = W4 m ρ c (Proc.devRef .tc main_v29) := by
  dsimp only [W5, hostOps1]; read_stretch
set_option maxRecDepth 8192 in
theorem W5_main_arg5 : W5 m ρ c (Proc.devRef .tc main_arg5) = W4 m ρ c (Proc.devRef .tc main_arg5) := by
  dsimp only [W5, hostOps1]; read_stretch
set_option maxRecDepth 8192 in
theorem W5_main_arg6 : W5 m ρ c (Proc.devRef .tc main_arg6) = W4 m ρ c (Proc.devRef .tc main_arg6) := by
  dsimp only [W5, hostOps1]; read_stretch
set_option maxRecDepth 8192 in
theorem W5_main_arg7 : W5 m ρ c (Proc.devRef .tc main_arg7) = W4 m ρ c (Proc.devRef .tc main_arg7) := by
  dsimp only [W5, hostOps1]; read_stretch

/-! ## Between the second and the third kernel -/

set_option maxRecDepth 8192 in
/-- The third kernel's features: the second kernel's output aggregated over the edges. -/
theorem W7_agg : W7 m ρ c (Proc.devRef .tc main_v58)
    = Cert.Stages.agg64 (W6 m ρ c (Proc.devRef .tc main_v45)) (W6 m ρ c (Proc.devRef .tc main_v3)) (W6 m ρ c (Proc.devRef .tc main_v6)) (W6 m ρ c (Proc.devRef .tc main_v29)) := by
  dsimp only [W7, hostOps2]; read_stretch
set_option maxRecDepth 8192 in
theorem W7_row2 : W7 m ρ c (Proc.devRef .tc main_v59) = shapeCast S1x64 (W6 m ρ c (Proc.devRef .tc main_arg5)) shapeCasts_S64_S1x64 := by
  dsimp only [W7, hostOps2]; read_stretch
set_option maxRecDepth 8192 in
theorem W7_rowl : W7 m ρ c (Proc.devRef .tc main_v60) = shapeCast S1x40 (W6 m ρ c (Proc.devRef .tc main_arg7)) shapeCasts_S40_S1x40 := by
  dsimp only [W7, hostOps2]; read_stretch
set_option maxRecDepth 8192 in
theorem W7_arg6 : W7 m ρ c (Proc.devRef .tc main_arg6) = W6 m ρ c (Proc.devRef .tc main_arg6) := by
  dsimp only [W7, hostOps2]; read_stretch

/-! ## Across the kernels: a buffer that is none of a kernel's arrays keeps its contents -/
theorem W4_main_v3 : W4 m ρ c (Proc.devRef .tc main_v3) = W3 m ρ c (Proc.devRef .tc main_v3) := W4_of_ne m ρ c main_v3 (by decide)
theorem W4_main_v6 : W4 m ρ c (Proc.devRef .tc main_v6) = W3 m ρ c (Proc.devRef .tc main_v6) := W4_of_ne m ρ c main_v6 (by decide)
theorem W4_main_v29 : W4 m ρ c (Proc.devRef .tc main_v29) = W3 m ρ c (Proc.devRef .tc main_v29) := W4_of_ne m ρ c main_v29 (by decide)
theorem W4_main_arg3 : W4 m ρ c (Proc.devRef .tc main_arg3) = W3 m ρ c (Proc.devRef .tc main_arg3) := W4_of_ne m ρ c main_arg3 (by decide)
theorem W4_main_arg4 : W4 m ρ c (Proc.devRef .tc main_arg4) = W3 m ρ c (Proc.devRef .tc main_arg4) := W4_of_ne m ρ c main_arg4 (by decide)
theorem W4_main_arg5 : W4 m ρ c (Proc.devRef .tc main_arg5) = W3 m ρ c (Proc.devRef .tc main_arg5) := W4_of_ne m ρ c main_arg5 (by decide)
theorem W4_main_arg6 : W4 m ρ c (Proc.devRef .tc main_arg6) = W3 m ρ c (Proc.devRef .tc main_arg6) := W4_of_ne m ρ c main_arg6 (by decide)
theorem W4_main_arg7 : W4 m ρ c (Proc.devRef .tc main_arg7) = W3 m ρ c (Proc.devRef .tc main_arg7) := W4_of_ne m ρ c main_arg7 (by decide)
theorem W6_main_v3 : W6 m ρ c (Proc.devRef .tc main_v3) = W5 m ρ c (Proc.devRef .tc main_v3) := W6_of_ne m ρ c main_v3 (by decide)
theorem W6_main_v6 : W6 m ρ c (Proc.devRef .tc main_v6) = W5 m ρ c (Proc.devRef .tc main_v6) := W6_of_ne m ρ c main_v6 (by decide)
theorem W6_main_v29 : W6 m ρ c (Proc.devRef .tc main_v29) = W5 m ρ c (Proc.devRef .tc main_v29) := W6_of_ne m ρ c main_v29 (by decide)
theorem W6_main_arg5 : W6 m ρ c (Proc.devRef .tc main_arg5) = W5 m ρ c (Proc.devRef .tc main_arg5) := W6_of_ne m ρ c main_arg5 (by decide)
theorem W6_main_arg6 : W6 m ρ c (Proc.devRef .tc main_arg6) = W5 m ρ c (Proc.devRef .tc main_arg6) := W6_of_ne m ρ c main_arg6 (by decide)
theorem W6_main_arg7 : W6 m ρ c (Proc.devRef .tc main_arg7) = W5 m ρ c (Proc.devRef .tc main_arg7) := W6_of_ne m ρ c main_arg7 (by decide)

end Cert.KernelIdeal.Chain

end
-- ==== Proof.LibColumnLayout.lean ====
/-
  Column vectors read at an index: a length-`a` vector viewed as an `[a, 1]` column and back, and a column repeated
  along the second axis. Row-major position is preserved by the two casts (the unit axis contributes nothing to it), and
  a broadcast reads a unit axis of its operand at coordinate zero.
-/
import Idealize.ShloMosaic.Lib.ValueIdx
import Idealize.ShloMosaic.Lib.Pipeline.Value

noncomputable section

namespace Cert.ColumnLayout

open Idealize.ShloMosaic Idealize.ShloMosaic.ValueIdx

variable {α : Type}

/-- An `[a]` array cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.ColumnLayout

end
-- ==== Proof.LibBroadcastInDim.lean ====
/-
  `broadcast_in_dim` of the small shapes around a column, read at an index: a scalar repeated over any shape reads the
  scalar; a vector `[a]` placed as a column `[a, 1]` reads its entry of the row; a column `[a, 1]` repeated along rows of
  width `b` reads the row's one entry. (The operand's unit axes read coordinate zero, its other axes the result's
  coordinate on the axis they are sent to.)
-/
import Idealize.ShloMosaic.Lib.ValueIdx
import Idealize.ShloMosaic.Lib.Pipeline.Value

noncomputable section

namespace Cert.BroadcastInDim

open Idealize.ShloMosaic Idealize.ShloMosaic.ValueIdx

variable {α : Type}

/-- A scalar repeated over a shape reads the scalar everywhere. -/
theorem scalar_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

/-- A vector `[a]` placed as a column `[a, 1]` reads, at `(i, u)`, its entry `i`. -/
theorem column_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column `[a, 1]` repeated along rows of width `b` reads, at `(p, c)`, the column's entry of row `p`. -/
theorem rows_apply {a b : ℕ} (x : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.BroadcastInDim

end
-- ==== Proof.LibLogSoftmax.lean ====
/-
  The logarithm of the softmax along the rows of a matrix, in the two spellings a tiled kernel and an untiled host program
  give it, both read entry by entry over the extended reals.

  For a row `y` the value at entry `q` is  (y q − mx) − log ∑ⱼ exp (y j − mx),  with `mx` the row's maximum folded from
  minus infinity (`logSoftmaxRow`). A kernel forms it on an [A, B] tile by a maximum and a sum along axis 1 (each result
  recast as an [A, 1] column and repeated along the rows); a host program by a `reduce` with a maximum body from minus
  infinity — compared once more with a minus-infinity array, which changes nothing —, a sum from zero, and
  `broadcast_in_dim`s of the column. At (p, q) both are `logSoftmaxRow` of row `p`
  (`logSoftmaxBlock_apply`, `hostLogSoftmax_apply`); nothing is assumed finite.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«161931_j5781025980782_1_alg».proof.Proof.LibColumnLayout
import proofs.«161931_j5781025980782_1_alg».proof.Proof.LibBroadcastInDim

open scoped BigOperators

noncomputable section

namespace Cert.LogSoftmax

open Idealize.ShloMosaic Idealize.ShloMosaic.ValueIdx

/-! ## The row function -/

/-- Minus infinity as the 32-bit pattern both programs start their row maxima from. -/
abbrev negInf : EReal := Ideal.ofBits .f32 0xFF800000#32

/-- The maximum of a row, folded from minus infinity. -/
def rowMax {M : ℕ} (y : Fin M → EReal) : EReal := (Finset.univ : Finset (Fin M)).fold max negInf y

/-- The logarithm of the softmax of a row `y`, at entry `q`. -/
def logSoftmaxRow {M : ℕ} (y : Fin M → EReal) (q : Fin M) : EReal :=
  (y q - rowMax y) - Ideal.log (∑ j : Fin M, Ideal.exp (y j - rowMax y))

/-- Minus infinity is neutral for the maximum. -/
theorem max_negInf (x : EReal) : max negInf x = x := by
  show max (Ideal.ofBits .f32 0xFF800000#32) x = x
  simp [Ideal.ofBits, Ideal.ieee]

/-! ## A kernel's tile -/

/-- The reduced index `p` with column `k` put back is (p, k). -/
theorem lift_row {A B : ℕ} (h : (⟨2, ![A, B]⟩ : Shape).Reduces [1] (⟨1, ![A]⟩ : Shape)) (p : Fin A)
    (k : Fin ((⟨2, ![A, B]⟩ : Shape).size 1)) : h.lift (ix1 p) k = ix2 p (⟨k.val, k.isLt⟩ : Fin B) := by
  funext c; apply Fin.ext
  fin_cases c <;> rfl

/-- A tile's maximum along each row, at row `p`: the row's maximum folded from minus infinity. -/
theorem rowMaxBlock_apply {A B : ℕ} (y : FVec Ideal ⟨2, ![A, B]⟩ .f32) (h : (⟨2, ![A, B]⟩ : Shape).Reduces [1] (⟨1, ![A]⟩ : Shape))
    (hφ : FKind.Formats .f32) (hacc : (0xFF800000#32 : BitVec FTy.f32.bits) = FKind.maximumf.neutral .f32 hφ) (p : Fin A) :
    multiReduction .maximumf [1] ⟨1, ![A]⟩ y 0xFF800000#32 h hφ hacc (ix1 p) = rowMax fun c => y (ix2 p c) := by
  rw [Ideal.multiReduction_maximumf_single y _ h hφ hacc (ix1 p)]
  have hf : (y ∘ h.lift (ix1 p)) = fun c : Fin B => y (ix2 p c) := funext fun k => congrArg y (lift_row h p k)
  exact congrArg (fun f => Finset.fold max (Ideal.ofBits .f32 0xFF800000#32) f (Finset.univ : Finset (Fin B))) hf

/-- A tile's sum along each row, at row `p`. -/
theorem rowSumBlock_apply {A B : ℕ} (y : FVec Ideal ⟨2, ![A, B]⟩ .f32) (h : (⟨2, ![A, B]⟩ : Shape).Reduces [1] (⟨1, ![A]⟩ : Shape))
    (hφ : FKind.Formats .f32) (hacc : (0x00000000#32 : BitVec FTy.f32.bits) = FKind.add.neutral .f32 hφ) (p : Fin A) :
    multiReduction .add [1] ⟨1, ![A]⟩ y 0x00000000#32 h hφ hacc (ix1 p) = ∑ c : Fin B, y (ix2 p c) := by
  rw [Ideal.multiReduction_add_single y _ h hφ hacc (ix1 p)]
  exact Finset.sum_congr rfl fun k _ => congrArg y (lift_row h p k)

/-- The last layer's arithmetic on a tile `y` of pre-activations, at (p, q): the log-softmax of row `p`. -/
theorem logSoftmaxBlock_apply {A B : ℕ} (y : FVec Ideal ⟨2, ![A, B]⟩ .f32) (h : (⟨2, ![A, B]⟩ : Shape).Reduces [1] (⟨1, ![A]⟩ : Shape))
    (hφ : FKind.Formats .f32) (hmax : (0xFF800000#32 : BitVec FTy.f32.bits) = FKind.maximumf.neutral .f32 hφ)
    (hadd : (0x00000000#32 : BitVec FTy.f32.bits) = FKind.add.neutral .f32 hφ)
    (hc : (⟨1, ![A]⟩ : Shape).ShapeCasts ⟨2, ![A, 1]⟩) (hb : (⟨2, ![A, 1]⟩ : Shape).Broadcasts ⟨2, ![A, B]⟩) (p : Fin A) (q : Fin B) :
    (subf (subf y (broadcastTo ⟨2, ![A, B]⟩ (shapeCast ⟨2, ![A, 1]⟩ (multiReduction .maximumf [1] ⟨1, ![A]⟩ y 0xFF800000#32 h hφ hmax) hc) hb))
      (broadcastTo ⟨2, ![A, B]⟩ (log (shapeCast ⟨2, ![A, 1]⟩ (multiReduction .add [1] ⟨1, ![A]⟩
        (exp (subf y (broadcastTo ⟨2, ![A, B]⟩ (shapeCast ⟨2, ![A, 1]⟩ (multiReduction .maximumf [1] ⟨1, ![A]⟩ y 0xFF800000#32 h hφ hmax) hc) hb)))
        0x00000000#32 h hφ hadd) hc)) hb) : FVec Ideal ⟨2, ![A, B]⟩ .f32) (ix2 p q)
      = logSoftmaxRow (fun c => y (ix2 p c)) q := by
  have hz : ∀ c : Fin B, (subf y (broadcastTo ⟨2, ![A, B]⟩ (shapeCast ⟨2, ![A, 1]⟩ (multiReduction .maximumf [1] ⟨1, ![A]⟩ y 0xFF800000#32 h hφ hmax) hc) hb)
      : FVec Ideal ⟨2, ![A, B]⟩ .f32) (ix2 p c) = y (ix2 p c) - rowMax fun c => y (ix2 p c) := fun c => by
    show y (ix2 p c) - broadcastTo ⟨2, ![A, B]⟩ (shapeCast ⟨2, ![A, 1]⟩ (multiReduction .maximumf [1] ⟨1, ![A]⟩ y 0xFF800000#32 h hφ hmax) hc) hb (ix2 p c) = _
    rw [Cert.ColumnLayout.broadcastTo_a1_ab_apply, Cert.ColumnLayout.shapeCast_a_a1_apply, rowMaxBlock_apply]
  show (subf y _ : FVec Ideal ⟨2, ![A, B]⟩ .f32) (ix2 p q) - broadcastTo ⟨2, ![A, B]⟩ (log (shapeCast ⟨2, ![A, 1]⟩ _ hc)) hb (ix2 p q) = _
  rw [hz q, Cert.ColumnLayout.broadcastTo_a1_ab_apply]
  show _ - Ideal.log (shapeCast ⟨2, ![A, 1]⟩ _ hc (ix2 p (0 : Fin 1))) = _
  rw [Cert.ColumnLayout.shapeCast_a_a1_apply, rowSumBlock_apply]
  unfold logSoftmaxRow
  refine congrArg (fun s => (y (ix2 p q) - rowMax fun c => y (ix2 p c)) - Ideal.log s) (Finset.sum_congr rfl fun c _ => ?_)
  show Ideal.exp ((subf y _ : FVec Ideal ⟨2, ![A, B]⟩ .f32) (ix2 p c)) = _
  rw [hz c]

/-! ## A host program's array -/

/-- The reduced index `p` with column `k` put back is (p, k). -/
theorem lift_row' {A B : ℕ} (h : (⟨2, ![A, B]⟩ : Shape).Reduces [1] (⟨1, ![A]⟩ : Shape)) (p : Fin A)
    (k : Fin ((⟨2, ![A, B]⟩ : Shape).size 1)) : h.lift (ix1 p) k = ix2 p (⟨k.val, k.isLt⟩ : Fin B) := by
  funext c; apply Fin.ext
  fin_cases c <;> rfl

/-- The host's maximum along each row from minus infinity, at row `p`. -/
theorem hostRowMax_apply {A B : ℕ} (y : FVec Ideal ⟨2, ![A, B]⟩ .f32) (h' : (⟨2, ![A, B]⟩ : Shape).ReducesTo [1] (⟨1, ![A]⟩ : Shape))
    (hu : 0 < (⟨0, ![]⟩ : Shape).numel) (p : Fin A) :
    Host.reduce FloatOps.maximumf y (constant (⟨0, ![]⟩ : Shape) .f32 0xFF800000#32) h' hu (ix1 p) = rowMax fun c => y (ix2 p c) := by
  have h : (⟨2, ![A, B]⟩ : Shape).Reduces [1] (⟨1, ![A]⟩ : Shape) := ⟨h'.1, Nat.one_pos, h'.2⟩
  rw [Host.reduce_eq_fold_single FloatOps.maximumf y _ h' h hu]
  have hf : (y ∘ h.lift (ix1 p)) = fun c : Fin B => y (ix2 p c) := funext fun k => congrArg y (lift_row' h p k)
  exact congrArg (fun f => Finset.fold max (Ideal.ofBits .f32 0xFF800000#32) f (Finset.univ : Finset (Fin B))) hf

/-- The host's sum along each row from zero, at row `p`. -/
theorem hostRowSum_apply {A B : ℕ} (y : FVec Ideal ⟨2, ![A, B]⟩ .f32) (h' : (⟨2, ![A, B]⟩ : Shape).ReducesTo [1] (⟨1, ![A]⟩ : Shape))
    (hu : 0 < (⟨0, ![]⟩ : Shape).numel) (p : Fin A) :
    Host.reduceAdd y (constant (⟨0, ![]⟩ : Shape) .f32 0x00000000#32) h' hu (ix1 p) = ∑ c : Fin B, y (ix2 p c) := by
  have h : (⟨2, ![A, B]⟩ : Shape).Reduces [1] (⟨1, ![A]⟩ : Shape) := ⟨h'.1, Nat.one_pos, h'.2⟩
  show Ideal.hostReduceAdd h' y (Ideal.ofBits .f32 0x00000000#32) (ix1 p) = _
  rw [Ideal.hostReduceAdd_single h' h, Ideal.ofBits_zero_f32, zero_add]
  exact Finset.sum_congr rfl fun k _ => congrArg y (lift_row' h p k)

/-- The row maxima as the host takes them: the fold from minus infinity, compared once more with minus infinity. -/
abbrev hostMx {A B : ℕ} (y : FVec Ideal ⟨2, ![A, B]⟩ .f32) (h' : (⟨2, ![A, B]⟩ : Shape).ReducesTo [1] (⟨1, ![A]⟩ : Shape))
    (hu : 0 < (⟨0, ![]⟩ : Shape).numel) (hbs : (⟨0, ![]⟩ : Shape).BroadcastsInDim ⟨1, ![A]⟩ ![]) : FVec Ideal ⟨1, ![A]⟩ .f32 :=
  maximumf (broadcastInDim ⟨1, ![A]⟩ ![] hbs (constant (⟨0, ![]⟩ : Shape) .f32 0xFF800000#32))
    (Host.reduce FloatOps.maximumf y (constant (⟨0, ![]⟩ : Shape) .f32 0xFF800000#32) h' hu)

/-- The array with each row's maximum subtracted, as the host forms it. -/
abbrev hostShifted {A B : ℕ} (y : FVec Ideal ⟨2, ![A, B]⟩ .f32) (h' : (⟨2, ![A, B]⟩ : Shape).ReducesTo [1] (⟨1, ![A]⟩ : Shape))
    (hu : 0 < (⟨0, ![]⟩ : Shape).numel) (hbs : (⟨0, ![]⟩ : Shape).BroadcastsInDim ⟨1, ![A]⟩ ![])
    (hbc : (⟨1, ![A]⟩ : Shape).BroadcastsInDim ⟨2, ![A, 1]⟩ ![0])
    (hbr : (⟨2, ![A, 1]⟩ : Shape).BroadcastsInDim ⟨2, ![A, B]⟩ ![0, 1]) : FVec Ideal ⟨2, ![A, B]⟩ .f32 :=
  subf y (broadcastInDim ⟨2, ![A, B]⟩ ![0, 1] hbr (broadcastInDim ⟨2, ![A, 1]⟩ ![0] hbc (hostMx y h' hu hbs)))

theorem hostMx_apply {A B : ℕ} (y : FVec Ideal ⟨2, ![A, B]⟩ .f32) (h' : (⟨2, ![A, B]⟩ : Shape).ReducesTo [1] (⟨1, ![A]⟩ : Shape))
    (hu : 0 < (⟨0, ![]⟩ : Shape).numel) (hbs : (⟨0, ![]⟩ : Shape).BroadcastsInDim ⟨1, ![A]⟩ ![]) (p : Fin A) :
    hostMx y h' hu hbs (ix1 p) = rowMax fun c => y (ix2 p c) := by
  show max (broadcastInDim ⟨1, ![A]⟩ ![] hbs (constant (⟨0, ![]⟩ : Shape) .f32 0xFF800000#32) (ix1 p))
    (Host.reduce FloatOps.maximumf y (constant (⟨0, ![]⟩ : Shape) .f32 0xFF800000#32) h' hu (ix1 p)) = _
  rw [Cert.BroadcastInDim.scalar_apply, hostRowMax_apply]
  exact max_negInf _

theorem hostShifted_apply {A B : ℕ} (y : FVec Ideal ⟨2, ![A, B]⟩ .f32) (h' : (⟨2, ![A, B]⟩ : Shape).ReducesTo [1] (⟨1, ![A]⟩ : Shape))
    (hu : 0 < (⟨0, ![]⟩ : Shape).numel) (hbs : (⟨0, ![]⟩ : Shape).BroadcastsInDim ⟨1, ![A]⟩ ![])
    (hbc : (⟨1, ![A]⟩ : Shape).BroadcastsInDim ⟨2, ![A, 1]⟩ ![0])
    (hbr : (⟨2, ![A, 1]⟩ : Shape).BroadcastsInDim ⟨2, ![A, B]⟩ ![0, 1]) (p : Fin A) (c : Fin B) :
    hostShifted y h' hu hbs hbc hbr (ix2 p c) = y (ix2 p c) - rowMax fun c => y (ix2 p c) := by
  show y (ix2 p c) - broadcastInDim ⟨2, ![A, B]⟩ ![0, 1] hbr (broadcastInDim ⟨2, ![A, 1]⟩ ![0] hbc (hostMx y h' hu hbs)) (ix2 p c) = _
  rw [Cert.BroadcastInDim.rows_apply, Cert.BroadcastInDim.column_apply, hostMx_apply]

/-- The host's log-softmax of an array `y` of pre-activations, at (p, q): the log-softmax of row `p`. -/
theorem hostLogSoftmax_apply {A B : ℕ} (y : FVec Ideal ⟨2, ![A, B]⟩ .f32) (h' : (⟨2, ![A, B]⟩ : Shape).ReducesTo [1] (⟨1, ![A]⟩ : Shape))
    (hu : 0 < (⟨0, ![]⟩ : Shape).numel)
    (hbs : (⟨0, ![]⟩ : Shape).BroadcastsInDim ⟨1, ![A]⟩ ![])
    (hbc : (⟨1, ![A]⟩ : Shape).BroadcastsInDim ⟨2, ![A, 1]⟩ ![0])
    (hbr : (⟨2, ![A, 1]⟩ : Shape).BroadcastsInDim ⟨2, ![A, B]⟩ ![0, 1]) (p : Fin A) (q : Fin B) :
    (subf (hostShifted y h' hu hbs hbc hbr)
      (broadcastInDim ⟨2, ![A, B]⟩ ![0, 1] hbr (Host.log (broadcastInDim ⟨2, ![A, 1]⟩ ![0] hbc
        (Host.reduceAdd (Host.exp (hostShifted y h' hu hbs hbc hbr)) (constant (⟨0, ![]⟩ : Shape) .f32 0x00000000#32) h' hu))))
      : FVec Ideal ⟨2, ![A, B]⟩ .f32) (ix2 p q)
      = logSoftmaxRow (fun c => y (ix2 p c)) q := by
  show hostShifted y h' hu hbs hbc hbr (ix2 p q) - broadcastInDim ⟨2, ![A, B]⟩ ![0, 1] hbr (Host.log (broadcastInDim ⟨2, ![A, 1]⟩ ![0] hbc
        (Host.reduceAdd (Host.exp (hostShifted y h' hu hbs hbc hbr)) (constant (⟨0, ![]⟩ : Shape) .f32 0x00000000#32) h' hu))) (ix2 p q) = _
  rw [hostShifted_apply, Cert.BroadcastInDim.rows_apply]
  show _ - Ideal.log (broadcastInDim ⟨2, ![A, 1]⟩ ![0] hbc
        (Host.reduceAdd (Host.exp (hostShifted y h' hu hbs hbc hbr)) (constant (⟨0, ![]⟩ : Shape) .f32 0x00000000#32) h' hu) (ix2 p (0 : Fin 1))) = _
  rw [Cert.BroadcastInDim.column_apply, hostRowSum_apply]
  unfold logSoftmaxRow
  refine congrArg (fun s => (y (ix2 p q) - rowMax fun c => y (ix2 p c)) - Ideal.log s) (Finset.sum_congr rfl fun c _ => ?_)
  show Ideal.exp (hostShifted y h' hu hbs hbc hbr (ix2 p c)) = _
  rw [hostShifted_apply]

/-- The log-softmax of an array of pre-activations, as the operations compose it. -/
abbrev hostLogSoftmaxTerm {A B : ℕ} (y : FVec Ideal ⟨2, ![A, B]⟩ .f32) (h' : (⟨2, ![A, B]⟩ : Shape).ReducesTo [1] (⟨1, ![A]⟩ : Shape))
    (hu : 0 < (⟨0, ![]⟩ : Shape).numel) (hbs : (⟨0, ![]⟩ : Shape).BroadcastsInDim ⟨1, ![A]⟩ ![])
    (hbc : (⟨1, ![A]⟩ : Shape).BroadcastsInDim ⟨2, ![A, 1]⟩ ![0])
    (hbr : (⟨2, ![A, 1]⟩ : Shape).BroadcastsInDim ⟨2, ![A, B]⟩ ![0, 1]) : FVec Ideal ⟨2, ![A, B]⟩ .f32 :=
  subf (hostShifted y h' hu hbs hbc hbr)
    (broadcastInDim ⟨2, ![A, B]⟩ ![0, 1] hbr (Host.log (broadcastInDim ⟨2, ![A, 1]⟩ ![0] hbc
      (Host.reduceAdd (Host.exp (hostShifted y h' hu hbs hbc hbr)) (constant (⟨0, ![]⟩ : Shape) .f32 0x00000000#32) h' hu))))

end Cert.LogSoftmax

end
-- ==== Proof.Spec.lean ====
/-
  The dense stages of a two-layer graph convolution with a classifier, as functions of whole arrays over the extended
  reals, entry by entry.

  `proj X W` is the matrix product: entry (p, q) is the sum over k of X (p, k) · W (k, q).
  `biasRelu A b` adds the bias row to every row of A and clips at zero: entry (p, q) is max (A (p, q) + b (0, q)) 0.
  `addRow A b` adds the row b to every row of A.
  `logSoftmaxRows Z` is the logarithm of the softmax along each row (the row function of the log-softmax module).
-/
import Idealize.ShloMosaic.PureOps.Ideal
import Idealize.ShloMosaic.Lib.ValueIdx
import proofs.«161931_j5781025980782_1_alg».proof.Proof.LibLogSoftmax

open scoped BigOperators

noncomputable section

namespace Cert.Spec

open Idealize.ShloMosaic Idealize.ShloMosaic.ValueIdx

/-- The row coordinate of an index of an [a, b] array, as a number below a. -/
abbrev row {a b : ℕ} (i : (⟨2, ![a, b]⟩ : Shape).Idx) : Fin a := ⟨(i 0).val, idx2_lt0 i⟩
/-- The column coordinate of an index of an [a, b] array, as a number below b. -/
abbrev col {a b : ℕ} (i : (⟨2, ![a, b]⟩ : Shape).Idx) : Fin b := ⟨(i 1).val, idx2_lt1 i⟩

theorem ix2_row_col {a b : ℕ} (i : (⟨2, ![a, b]⟩ : Shape).Idx) : ix2 (row i) (col i) = i :=
  (eq_ix2 i).symm

/-- The matrix product X · W, entry by entry. -/
def proj {N K M : ℕ} (X : (⟨2, ![N, K]⟩ : Shape).Idx → EReal) (W : (⟨2, ![K, M]⟩ : Shape).Idx → EReal) :
    (⟨2, ![N, M]⟩ : Shape).Idx → EReal :=
  fun i => ∑ k : Fin K, X (ix2 (row i) k) * W (ix2 k (col i))

theorem proj_ix2 {N K M : ℕ} (X : (⟨2, ![N, K]⟩ : Shape).Idx → EReal) (W : (⟨2, ![K, M]⟩ : Shape).Idx → EReal)
    (p : Fin N) (q : Fin M) : proj X W (ix2 p q) = ∑ k : Fin K, X (ix2 p k) * W (ix2 k q) := rfl

/-- A row b added to every row of A. -/
def addRow {N M : ℕ} (A : (⟨2, ![N, M]⟩ : Shape).Idx → EReal) (b : (⟨2, ![1, M]⟩ : Shape).Idx → EReal) :
    (⟨2, ![N, M]⟩ : Shape).Idx → EReal :=
  fun i => A i + b (ix2 (0 : Fin 1) (col i))

theorem addRow_ix2 {N M : ℕ} (A : (⟨2, ![N, M]⟩ : Shape).Idx → EReal) (b : (⟨2, ![1, M]⟩ : Shape).Idx → EReal)
    (p : Fin N) (q : Fin M) : addRow A b (ix2 p q) = A (ix2 p q) + b (ix2 (0 : Fin 1) q) := rfl

/-- The zero both programs clip at, as the 32-bit pattern they write it with. -/
abbrev zero32 : EReal := Ideal.ofBits .f32 0x00000000#32

/-- A row b added to every row of A, then clipped below at zero. -/
def biasRelu {N M : ℕ} (A : (⟨2, ![N, M]⟩ : Shape).Idx → EReal) (b : (⟨2, ![1, M]⟩ : Shape).Idx → EReal) :
    (⟨2, ![N, M]⟩ : Shape).Idx → EReal :=
  fun i => max (addRow A b i) zero32

theorem biasRelu_ix2 {N M : ℕ} (A : (⟨2, ![N, M]⟩ : Shape).Idx → EReal) (b : (⟨2, ![1, M]⟩ : Shape).Idx → EReal)
    (p : Fin N) (q : Fin M) : biasRelu A b (ix2 p q) = max (A (ix2 p q) + b (ix2 (0 : Fin 1) q)) zero32 := rfl

/-- The logarithm of the softmax along each row of Z. -/
def logSoftmaxRows {N M : ℕ} (Z : (⟨2, ![N, M]⟩ : Shape).Idx → EReal) : (⟨2, ![N, M]⟩ : Shape).Idx → EReal :=
  fun i => Cert.LogSoftmax.logSoftmaxRow (fun c => Z (ix2 (row i) c)) (col i)

theorem logSoftmaxRows_ix2 {N M : ℕ} (Z : (⟨2, ![N, M]⟩ : Shape).Idx → EReal) (p : Fin N) (q : Fin M) :
    logSoftmaxRows Z (ix2 p q) = Cert.LogSoftmax.logSoftmaxRow (fun c => Z (ix2 p c)) q := rfl

end Cert.Spec

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«161931_j5781025980782_1_alg».proof.Proof.LibPlainDot
import proofs.«161931_j5781025980782_1_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.Region0.lean ====
/-
  The first kernel: one row block of x times W1 per grid point.

  The grid has ten points; point t stages rows 10000·t … 10000·t + 9999 of the left array and the whole right array,
  multiplies them into a zero accumulator and writes the product back as rows 10000·t … of the output. Entry (p, q) of
  the block is the sum over k of x (10000·t + p, k) · W1 (k, q), which is entry (10000·t + p, q) of the whole product; the
  ten blocks tile the output, so after the kernel the output array is the whole product, for any contents the kernel is
  entered with.
-/
import proofs.«161931_j5781025980782_1_alg».proof.Proof.Gen.KernelIdeal.Frame
import proofs.«161931_j5781025980782_1_alg».proof.Proof.Spec
import proofs.«161931_j5781025980782_1_alg».proof.Proof.LibZeroAccDots
import Idealize.ShloMosaic.Lib.Pipeline.Value
import Idealize.ShloMosaic.Lib.ValueIdx

set_option maxRecDepth 16384

open scoped BigOperators

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block product at (p, q): the sum along row p of the left block and column q of the right. -/
theorem pay_apply (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  exact Cert.ZeroAccDots.rows_columns dot_S10000x128_S128x128_S10000x128_1_0_0_1_n_n rfl rfl rfl rfl rfl rfl rfl rfl none _ _ p q

/-- Where each window's block sits at point t: the left array's and the output's at row block t, the right array whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left array as the kernel finds it. -/
abbrev lhs (c : Dev nD) : S100000x128.Idx → EReal := V c main_arg0
/-- The right array as the kernel finds it. -/
abbrev rhs (c : Dev nD) : S128x128.Idx → EReal := V c main_arg2

/-- The whole product of the arrays the kernel is entered with. -/
abbrev product (c : Dev nD) : S100000x128.Idx → EReal := Cert.Spec.proj (lhs V c) (rhs V c)

/-- What point t writes back is block t of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e00, e01, e10, e11, e20, e21⟩ := idx_facts t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q) = product V c (((cfg0.win 2).blk t).view.emb (ix2 p q))
  refine (pay_apply _ _ p q).trans ?_
  show _ = ∑ k : Fin 128, lhs V c (ix2 (Cert.Spec.row (((cfg0.win 2).blk t).view.emb (ix2 p q))) k)
      * rhs V c (ix2 k (Cert.Spec.col (((cfg0.win 2).blk t).view.emb (ix2 p q))))
  refine Finset.sum_congr rfl fun k _ => ?_
  have h0 : iblk0 V c 0 t (ix2 p k) = lhs V c (ix2 (Cert.Spec.row (((cfg0.win 2).blk t).view.emb (ix2 p q))) k) := by
    show V c main_arg0 (((cfg0.win 0).blk t).view.emb (ix2 p k)) = _
    refine congrArg _ (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have h1 : iblk0 V c 1 t (ix2 k q) = rhs V c (ix2 k (Cert.Spec.col (((cfg0.win 2).blk t).view.emb (ix2 p q)))) := by
    show V c main_arg2 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

/-- An index is in point t's block when its rows are rows 10000·t … 10000·t + 9999. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- The ten row blocks cover the output. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨-, -, -, -, e20, e21⟩ := idx_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the kernel its output array is the whole product x · W1 of the arrays it was entered with. -/
theorem value (c : Dev nD) : (dat0 V c).arrAt 2 cfg0.N = product V c :=
  (dat0 V c).arrAt_eq_of_cover 2 (product V c) (fun t _ => flushed_eq V c t) cover

end Cert.KernelIdeal.Region0

end
-- ==== Proof.Region1.lean ====
/-
  The second kernel: relu (a + b1) · W2, one row block per grid point.

  Point t stages rows 10000·t … 10000·t + 9999 of the aggregated features a, the bias row b1 and the whole W2; it adds
  the row to every row of the block, clips at zero, multiplies by W2 into a zero accumulator and writes the product back as
  rows 10000·t … of the output. Entry (p, q) of the block is the sum over k of max (a (10000·t + p, k) + b1 (0, k)) 0 · W2 (k, q),
  entry (10000·t + p, q) of the whole array  relu (a + b1) · W2; the ten blocks tile the output.
-/
import proofs.«161931_j5781025980782_1_alg».proof.Proof.Gen.KernelIdeal.Frame
import proofs.«161931_j5781025980782_1_alg».proof.Proof.Spec
import proofs.«161931_j5781025980782_1_alg».proof.Proof.LibZeroAccDots
import Idealize.ShloMosaic.Lib.Pipeline.Value
import Idealize.ShloMosaic.Lib.ValueIdx
import Idealize.ShloMosaic.Lib.ValueLayout

set_option maxRecDepth 16384

open scoped BigOperators

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block's activation at (p, k): the bias row added, clipped at zero. -/
theorem act_apply (x0 : Vec Ideal S10000x128 .f32) (x1 : Vec Ideal S1x128 .f32) (p : Fin 10000) (k : Fin 128) :
    (maximumf (addf (shapeCast S10000x128 x0 shapeCasts_S10000x128_S10000x128)
        (broadcastTo S10000x128 (shapeCast S1x128 x1 shapeCasts_S1x128_S1x128) broadcasts_S1x128_S10000x128))
      (broadcast S10000x128 (Scalar.ofBits (F := Ideal) .f32 0x00000000#32)) : FVec Ideal S10000x128 .f32) (ix2 p k)
      = max (x0 (ix2 p k) + x1 (ix2 (0 : Fin 1) k)) Cert.Spec.zero32 := by
  show max ((shapeCast S10000x128 x0 shapeCasts_S10000x128_S10000x128) (ix2 p k)
      + (broadcastTo S10000x128 (shapeCast S1x128 x1 shapeCasts_S1x128_S1x128) broadcasts_S1x128_S10000x128) (ix2 p k)) _ = _
  rw [shapeCast_self, broadcastTo_1b_ab_apply, shapeCast_self]
  rfl

/-- The block product at (p, q). -/
theorem pay_apply (x0 : Vec Ideal S10000x128 .f32) (x1 : Vec Ideal S1x128 .f32) (x2 : Vec Ideal S128x64 .f32) (p : Fin 10000) (q : Fin 64) :
    k1_pay1 x0 x1 x2 (ix2 p q) = ∑ k : Fin 128, max (x0 (ix2 p k) + x1 (ix2 (0 : Fin 1) k)) Cert.Spec.zero32 * x2 (ix2 k q) := by
  unfold k1_pay1
  refine (Cert.ZeroAccDots.rows_columns dot_S10000x128_S128x64_S10000x64_1_0_0_1_n_n rfl rfl rfl rfl rfl rfl rfl rfl none _ _ p q).trans ?_
  refine Finset.sum_congr rfl fun k _ => ?_
  exact congrArg (· * x2 (ix2 k q)) (act_apply x0 x1 p k)

/-- Where each window's block sits at point t. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregated features as the kernel finds them. -/
abbrev feat (c : Dev nD) : S100000x128.Idx → EReal := V c main_v43
/-- The bias row as the kernel finds it. -/
abbrev bias (c : Dev nD) : S1x128.Idx → EReal := V c main_v44
/-- The weights as the kernel finds them. -/
abbrev wts (c : Dev nD) : S128x64.Idx → EReal := V c main_arg4

/-- relu (a + b1) · W2 of the arrays the kernel is entered with. -/
abbrev product (c : Dev nD) : S100000x64.Idx → EReal :=
  Cert.Spec.proj (Cert.Spec.biasRelu (feat V c) (bias V c)) (wts V c)

/-- What point t writes back is block t of the whole array. -/
theorem flushed_eq (c : Dev nD) (t : Fin cfg1.N) :
    (dat1 V c).flushed 3 t = ((cfg1.win 3).blk t).view.read (Elt Ideal) (product V c) := by
  show (cfg1.win 3).cut (grid1.coords t) ((dat1 V c).after 3 t) = _
  rw [after1_3]
  unfold out1_3
  rw [View.canon_unit_zero hz]
  simp only [View.ld_unit_zero (S := S10000x128) hz, View.ld_unit_zero (S := S1x128) hz, View.ld_unit_zero (S := S128x64) hz]
  obtain ⟨e00, e01, e10, e11, e20, e21, e30, e31⟩ := idx_facts t
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (ix2 p q) = product V c (((cfg1.win 3).blk t).view.emb (ix2 p q))
  refine (pay_apply _ _ _ p q).trans ?_
  show _ = ∑ k : Fin 128, max (feat V c (ix2 (Cert.Spec.row (((cfg1.win 3).blk t).view.emb (ix2 p q))) k) + bias V c (ix2 (0 : Fin 1) k)) Cert.Spec.zero32
      * wts V c (ix2 k (Cert.Spec.col (((cfg1.win 3).blk t).view.emb (ix2 p q))))
  refine Finset.sum_congr rfl fun k _ => ?_
  have h0 : iblk1 V c 0 t (ix2 p k) = feat V c (ix2 (Cert.Spec.row (((cfg1.win 3).blk t).view.emb (ix2 p q))) k) := by
    show V c main_v43 (((cfg1.win 0).blk t).view.emb (ix2 p k)) = _
    refine congrArg _ (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 128 + 1 * k.val = k.val; omega
  have h1 : iblk1 V c 1 t (ix2 (0 : Fin 1) k) = bias V c (ix2 (0 : Fin 1) k) := by
    show V c main_v44 (((cfg1.win 1).blk t).view.emb (ix2 (0 : Fin 1) k)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  have h2 : iblk1 V c 2 t (ix2 k q) = wts V c (ix2 k (Cert.Spec.col (((cfg1.win 3).blk t).view.emb (ix2 p q)))) := by
    show V c main_arg4 (((cfg1.win 2).blk t).view.emb (ix2 k q)) = _
    refine congrArg _ (funext fun a => Fin.ext ?_)
    match a with
    | ⟨0, _⟩ => show win1_2.index t (0 : Fin 2) * 128 + 1 * k.val = k.val; omega
    | ⟨1, _⟩ => show win1_2.index t (1 : Fin 2) * 64 + 1 * q.val = win1_3.index t (1 : Fin 2) * 64 + 1 * q.val; omega
  rw [h0, h1, h2]

/-- An index is in point t's block when its rows are rows 10000·t … 10000·t + 9999. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v45).slice (win1_3.rect t)).set ↔ _
  rw [View.set_slice_whole, Rect.mem_set_unit]
  exact Iff.rfl

/-- The ten row blocks cover the output. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨-, -, -, -, -, -, e30, e31⟩ := idx_facts t
  have ht : t.val = (i 0).val / 10000 := rfl
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- After the kernel its output array is relu (a + b1) · W2 of the arrays it was entered with. -/
theorem value (c : Dev nD) : (dat1 V c).arrAt 3 cfg1.N = product V c :=
  (dat1 V c).arrAt_eq_of_cover 3 (product V c) (fun t _ => flushed_eq V c t) cover

end Cert.KernelIdeal.Region1

end
-- ==== Proof.Region2.lean ====
/-
  The third kernel: the embedding a + b2, and the log-softmax of the classifier's pre-activations, one row block per grid point.

  Point t stages rows 10000·t … 10000·t + 9999 of the aggregated features a, the bias row b2, the whole Wl and the bias
  row bl. It stores  e = a + b2  (block t of the embedding) and, with  z = e · Wl + bl  (a product into a zero
  accumulator, then the bias row), the log-softmax of z along each row: the row maximum folded from minus infinity is
  subtracted, the exponentials are summed along the row, and the logarithm of the sum is subtracted (block t of the
  log-probabilities). A row of z depends on one row of a only, so block t of each output is block t of the whole-array
  function, and the ten blocks tile each output.
-/
import proofs.«161931_j5781025980782_1_alg».proof.Proof.Gen.KernelIdeal.Frame
import proofs.«161931_j5781025980782_1_alg».proof.Proof.Spec
import proofs.«161931_j5781025980782_1_alg».proof.Proof.LibZeroAccDots
import proofs.«161931_j5781025980782_1_alg».proof.Proof.LibLogSoftmax
import Idealize.ShloMosaic.Lib.Pipeline.Value
import Idealize.ShloMosaic.Lib.ValueIdx
import Idealize.ShloMosaic.Lib.ValueLayout

set_option maxRecDepth 16384

open scoped BigOperators

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The body's two stored values at an entry -/

/-- The stored embedding block at (p, k): the bias row added. -/
theorem emb_apply (x0 : Vec Ideal S10000x64 .f32) (x1 : Vec Ideal S1x64 .f32) (p : Fin 10000) (k : Fin 64) :
    k2_pay1 x0 x1 (ix2 p k) = x0 (ix2 p k) + x1 (ix2 (0 : Fin 1) k) := by
  unfold k2_pay1
  show (shapeCast S10000x64 x0 shapeCasts_S10000x64_S10000x64) (ix2 p k)
      + (broadcastTo S10000x64 (shapeCast S1x64 x1 shapeCasts_S1x64_S1x64) broadcasts_S1x64_S10000x64) (ix2 p k) = _
  rw [shapeCast_self, broadcastTo_1b_ab_apply, shapeCast_self]

/-- The block of pre-activations: the embedding block times the weights into a zero accumulator, plus the bias row. -/
def logits (x0 : Vec Ideal S10000x64 .f32) (x1 : Vec Ideal S1x64 .f32) (x2 : Vec Ideal S64x40 .f32) (x3 : Vec Ideal S1x40 .f32) :
    FVec Ideal S10000x40 .f32 :=
  addf (matmul dot_S10000x64_S64x40_S10000x40_1_0_0_1_n_n none (truncf .bf16 (k2_pay1 x0 x1) bitsLt_bf16_f32) (truncf .bf16 x2 bitsLt_bf16_f32)
      (constant S10000x40 .f32 0x00000000#32))
    (broadcastTo S10000x40 (shapeCast S1x40 x3 shapeCasts_S1x40_S1x40) broadcasts_S1x40_S10000x40)

/-- The pre-activations at (p, c). -/
theorem logits_apply (x0 : Vec Ideal S10000x64 .f32) (x1 : Vec Ideal S1x64 .f32) (x2 : Vec Ideal S64x40 .f32) (x3 : Vec Ideal S1x40 .f32)
    (p : Fin 10000) (c : Fin 40) :
    logits x0 x1 x2 x3 (ix2 p c) = (∑ k : Fin 64, (x0 (ix2 p k) + x1 (ix2 (0 : Fin 1) k)) * x2 (ix2 k c)) + x3 (ix2 (0 : Fin 1) c) := by
  unfold logits
  show (matmul dot_S10000x64_S64x40_S10000x40_1_0_0_1_n_n none (truncf .bf16 (k2_pay1 x0 x1) bitsLt_bf16_f32) (truncf .bf16 x2 bitsLt_bf16_f32)
      (constant S10000x40 .f32 0x00000000#32)) (ix2 p c)
    + (broadcastTo S10000x40 (shapeCast S1x40 x3 shapeCasts_S1x40_S1x40) broadcasts_S1x40_S10000x40) (ix2 p c) = _
  rw [broadcastTo_1b_ab_apply, shapeCast_self]
  refine congrArg (· + x3 (ix2 (0 : Fin 1) c)) ?_
  refine (Cert.ZeroAccDots.rows_columns dot_S10000x64_S64x40_S10000x40_1_0_0_1_n_n rfl rfl rfl rfl rfl rfl rfl rfl none _ _ p c).trans ?_
  refine Finset.sum_congr rfl fun k _ => ?_
  exact congrArg (· * x2 (ix2 k c)) (emb_apply x0 x1 p k)

/-- The stored log-probability block at (p, q): the log-softmax of row p of the block of pre-activations. -/
theorem logp_apply (x0 : Vec Ideal S10000x64 .f32) (x1 : Vec Ideal S1x64 .f32) (x2 : Vec Ideal S64x40 .f32) (x3 : Vec Ideal S1x40 .f32)
    (p : Fin 10000) (q : Fin 40) :
    k2_pay2 x0 x1 x2 x3 (ix2 p q) = Cert.LogSoftmax.logSoftmaxRow (fun c => logits x0 x1 x2 x3 (ix2 p c)) q := by
  unfold k2_pay2
  exact Cert.LogSoftmax.logSoftmaxBlock_apply (logits x0 x1 x2 x3) reduces_S10000x40_S10000 (.inl rfl) rfl rfl
    shapeCasts_S10000_S10000x1 broadcasts_S10000x1_S10000x40 p q

/-! ## The windows' blocks -/

/-- Where each window's block sits at point t. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The aggregated features as the kernel finds them. -/
abbrev feat (c : Dev nD) : S100000x64.Idx → EReal := V c main_v58
/-- The embedding's bias row as the kernel finds it. -/
abbrev bias2 (c : Dev nD) : S1x64.Idx → EReal := V c main_v59
/-- The classifier's weights as the kernel finds them. -/
abbrev wts (c : Dev nD) : S64x40.Idx → EReal := V c main_arg6
/-- The classifier's bias row as the kernel finds it. -/
abbrev biasl (c : Dev nD) : S1x40.Idx → EReal := V c main_v60

/-- The embedding a + b2 of the arrays the kernel is entered with. -/
abbrev embedding (c : Dev nD) : S100000x64.Idx → EReal := Cert.Spec.addRow (feat V c) (bias2 V c)

/-- The pre-activations e · Wl + bl. -/
abbrev preact (c : Dev nD) : S100000x40.Idx → EReal := Cert.Spec.addRow (Cert.Spec.proj (embedding V c) (wts V c)) (biasl V c)

/-- The log-probabilities. -/
abbrev logprob (c : Dev nD) : S100000x40.Idx → EReal := Cert.Spec.logSoftmaxRows (preact V c)

theorem blk_feat (c : Dev nD) (t : Fin cfg2.N) (p : Fin 10000) (k : Fin 64) (r : Fin 100000) (hr : r.val = t.val * 10000 + p.val) :
    iblk2 V c 0 t (ix2 p k) = feat V c (ix2 r k) := by
  obtain ⟨e00, e01, -⟩ := idx_facts t
  show V c main_v58 (((cfg2.win 0).blk t).view.emb (ix2 p k)) = _
  refine congrArg _ (funext fun a => Fin.ext ?_)
  match a with
  | ⟨0, _⟩ => show win2_0.index t (0 : Fin 2) * 10000 + 1 * p.val = r.val; omega
  | ⟨1, _⟩ => show win2_0.index t (1 : Fin 2) * 64 + 1 * k.val = k.val; omega

theorem blk_bias2 (c : Dev nD) (t : Fin cfg2.N) (k : Fin 64) : iblk2 V c 1 t (ix2 (0 : Fin 1) k) = bias2 V c (ix2 (0 : Fin 1) k) := by
  obtain ⟨-, -, e10, e11, -⟩ := idx_facts t
  show V c main_v59 (((cfg2.win 1).blk t).view.emb (ix2 (0 : Fin 1) k)) = _
  refine congrArg _ (funext fun a => Fin.ext ?_)
  match a with
  | ⟨0, _⟩ => show win2_1.index t (0 : Fin 2) * 1 + 1 * 0 = 0; omega
  | ⟨1, _⟩ => show win2_1.index t (1 : Fin 2) * 64 + 1 * k.val = k.val; omega

theorem blk_wts (c : Dev nD) (t : Fin cfg2.N) (k : Fin 64) (q : Fin 40) : iblk2 V c 2 t (ix2 k q) = wts V c (ix2 k q) := by
  obtain ⟨-, -, -, -, e20, e21, -⟩ := idx_facts t
  show V c main_arg6 (((cfg2.win 2).blk t).view.emb (ix2 k q)) = _
  refine congrArg _ (funext fun a => Fin.ext ?_)
  match a with
  | ⟨0, _⟩ => show win2_2.index t (0 : Fin 2) * 64 + 1 * k.val = k.val; omega
  | ⟨1, _⟩ => show win2_2.index t (1 : Fin 2) * 40 + 1 * q.val = q.val; omega

theorem blk_biasl (c : Dev nD) (t : Fin cfg2.N) (q : Fin 40) : iblk2 V c 3 t (ix2 (0 : Fin 1) q) = biasl V c (ix2 (0 : Fin 1) q) := by
  obtain ⟨-, -, -, -, -, -, e30, e31, -⟩ := idx_facts t
  show V c main_v60 (((cfg2.win 3).blk t).view.emb (ix2 (0 : Fin 1) q)) = _
  refine congrArg _ (funext fun a => Fin.ext ?_)
  match a with
  | ⟨0, _⟩ => show win2_3.index t (0 : Fin 2) * 1 + 1 * 0 = 0; omega
  | ⟨1, _⟩ => show win2_3.index t (1 : Fin 2) * 40 + 1 * q.val = q.val; omega

/-! ## The embedding output -/

/-- What point t writes back to the embedding is block t of the whole embedding. -/
theorem flushed_emb (c : Dev nD) (t : Fin cfg2.N) :
    (dat2 V c).flushed 4 t = ((cfg2.win 4).blk t).view.read (Elt Ideal) (embedding V c) := by
  show (cfg2.win 4).cut (grid2.coords t) ((dat2 V c).after 4 t) = _
  rw [after2_4]
  unfold out2_4
  rw [View.canon_unit_zero hz]
  simp only [View.ld_unit_zero (S := S10000x64) hz, View.ld_unit_zero (S := S1x64) hz]
  obtain ⟨-, -, -, -, -, -, -, -, e40, e41, -⟩ := idx_facts t
  funext j
  obtain ⟨p, q, rfl⟩ : ∃ (p : Fin 10000) (q : Fin 64), j = ix2 p q := ⟨j 0, j 1, eq_ix2 j⟩
  show k2_pay1 (iblk2 V c 0 t) (iblk2 V c 1 t) (ix2 p q) = embedding V c (((cfg2.win 4).blk t).view.emb (ix2 p q))
  refine (emb_apply _ _ p q).trans ?_
  have hN : cfg2.N = 10 := N_2
  have hlt : t.val * 10000 + p.val < 100000 := by have := t.isLt; omega
  have hi : ((cfg2.win 4).blk t).view.emb (ix2 p q) = ix2 (⟨t.val * 10000 + p.val, hlt⟩ : Fin 100000) q := by
    funext a; apply Fin.ext
    match a with
    | ⟨0, _⟩ => show win2_4.index t (0 : Fin 2) * 10000 + 1 * p.val = t.val * 10000 + p.val; omega
    | ⟨1, _⟩ => show win2_4.index t (1 : Fin 2) * 64 + 1 * q.val = q.val; omega
  rw [hi, blk_feat V c t p q ⟨t.val * 10000 + p.val, hlt⟩ rfl, blk_bias2 V c t q]
  rfl

theorem mem_blk4 (t : Fin cfg2.N) (i : S100000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v61_0).slice (win2_4.rect t)).set ↔ _
  rw [View.set_slice_whole, Rect.mem_set_unit]
  exact Iff.rfl

theorem cover4 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 10 := N_2
  let t : Fin cfg2.N := ⟨(i 0).val / 10000, by rw [hN]; omega⟩
  obtain ⟨-, -, -, -, -, -, -, -, e40, e41, -⟩ := idx_facts t
  have ht : t.val = (i 0).val / 10000 := rfl
  refine ⟨t, flush2_4 t, ?_⟩
  rw [mem_blk4]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 64 ≤ (i 1).val ∧ (i 1).val < win2_4.index t (1 : Fin 2) * 64 + 64; omega

/-- After the kernel its first output array is the embedding a + b2 of the arrays it was entered with. -/
theorem value_emb (c : Dev nD) : (dat2 V c).arrAt 4 cfg2.N = embedding V c :=
  (dat2 V c).arrAt_eq_of_cover 4 (embedding V c) (fun t _ => flushed_emb V c t) cover4

/-! ## The log-probability output -/

/-- Row p of point t's block of pre-activations is row 10000·t + p of the whole array of pre-activations. -/
theorem blk_preact (c : Dev nD) (t : Fin cfg2.N) (p : Fin 10000) (q : Fin 40) (r : Fin 100000) (hr : r.val = t.val * 10000 + p.val) :
    logits (iblk2 V c 0 t) (iblk2 V c 1 t) (iblk2 V c 2 t) (iblk2 V c 3 t) (ix2 p q) = preact V c (ix2 r q) := by
  refine (logits_apply _ _ _ _ p q).trans ?_
  show _ = (∑ k : Fin 64, (feat V c (ix2 r k) + bias2 V c (ix2 (0 : Fin 1) k)) * wts V c (ix2 k q)) + biasl V c (ix2 (0 : Fin 1) q)
  rw [blk_biasl V c t q]
  refine congrArg (· + biasl V c (ix2 (0 : Fin 1) q)) (Finset.sum_congr rfl fun k _ => ?_)
  rw [blk_feat V c t p k r hr, blk_bias2 V c t k, blk_wts V c t k q]

/-- What point t writes back to the log-probabilities is block t of the whole array. -/
theorem flushed_logp (c : Dev nD) (t : Fin cfg2.N) :
    (dat2 V c).flushed 5 t = ((cfg2.win 5).blk t).view.read (Elt Ideal) (logprob V c) := by
  show (cfg2.win 5).cut (grid2.coords t) ((dat2 V c).after 5 t) = _
  rw [after2_5]
  unfold out2_5
  rw [View.canon_unit_zero hz]
  simp only [View.ld_unit_zero (S := S10000x64) hz, View.ld_unit_zero (S := S1x64) hz, View.ld_unit_zero (S := S64x40) hz, View.ld_unit_zero (S := S1x40) hz]
  obtain ⟨-, -, -, -, -, -, -, -, -, -, e50, e51⟩ := idx_facts t
  funext j
  obtain ⟨p, q, rfl⟩ : ∃ (p : Fin 10000) (q : Fin 40), j = ix2 p q := ⟨j 0, j 1, eq_ix2 j⟩
  show k2_pay2 (iblk2 V c 0 t) (iblk2 V c 1 t) (iblk2 V c 2 t) (iblk2 V c 3 t) (ix2 p q) = logprob V c (((cfg2.win 5).blk t).view.emb (ix2 p q))
  refine (logp_apply _ _ _ _ p q).trans ?_
  have hN : cfg2.N = 10 := N_2
  have hlt : t.val * 10000 + p.val < 100000 := by have := t.isLt; omega
  have hi : ((cfg2.win 5).blk t).view.emb (ix2 p q) = ix2 (⟨t.val * 10000 + p.val, hlt⟩ : Fin 100000) q := by
    funext a; apply Fin.ext
    match a with
    | ⟨0, _⟩ => show win2_5.index t (0 : Fin 2) * 10000 + 1 * p.val = t.val * 10000 + p.val; omega
    | ⟨1, _⟩ => show win2_5.index t (1 : Fin 2) * 40 + 1 * q.val = q.val; omega
  rw [hi]
  show _ = Cert.LogSoftmax.logSoftmaxRow (fun c' => preact V c (ix2 (⟨t.val * 10000 + p.val, hlt⟩ : Fin 100000) c')) q
  exact congrArg (fun f => Cert.LogSoftmax.logSoftmaxRow f q) (funext fun c' => blk_preact V c t p c' ⟨t.val * 10000 + p.val, hlt⟩ rfl)

theorem mem_blk5 (t : Fin cfg2.N) (i : S100000x40.Idx) :
    i ∈ ((cfg2.win 5).blk t).view.set ↔ ∀ a : Fin 2, win2_5.index t a * S10000x40.size a ≤ (i a).val ∧ (i a).val < win2_5.index t a * S10000x40.size a + S10000x40.size a := by
  show i ∈ ((View.whole main_v61_1).slice (win2_5.rect t)).set ↔ _
  rw [View.set_slice_whole, Rect.mem_set_unit]
  exact Iff.rfl

theorem cover5 (i : S100000x40.Idx) : ∃ t : Fin cfg2.N, (cfg2.win 5).flush t = true ∧ i ∈ ((cfg2.win 5).blk t).view.set := by
  have hi0 : (i 0).val < 100000 := (i 0).isLt
  have hi1 : (i 1).val < 40 := (i 1).isLt
  have hN : cfg2.N = 10 := N_2
  let t : Fin cfg2.N := ⟨(i 0).val / 10000, by rw [hN]; omega⟩
  obtain ⟨-, -, -, -, -, -, -, -, -, -, e50, e51⟩ := idx_facts t
  have ht : t.val = (i 0).val / 10000 := rfl
  refine ⟨t, flush2_5 t, ?_⟩
  rw [mem_blk5]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 40 ≤ (i 1).val ∧ (i 1).val < win2_5.index t (1 : Fin 2) * 40 + 40; omega

/-- After the kernel its second output array is the log-softmax along the rows of (a + b2) · Wl + bl. -/
theorem value_logp (c : Dev nD) : (dat2 V c).arrAt 5 cfg2.N = logprob V c :=
  (dat2 V c).arrAt_eq_of_cover 5 (logprob V c) (fun t _ => flushed_logp V c t) cover5

end Cert.KernelIdeal.Region2

end
-- ==== Proof.SpecTerms.lean ====
/-
  The two results as functions of the arguments: the dense stages as the specification's whole-array functions, the
  aggregations between them the shared host stages, the bias vectors given as rows.
-/
import proofs.«161931_j5781025980782_1_alg».proof.Proof.Spec
import proofs.«161931_j5781025980782_1_alg».proof.Proof.Stages

noncomputable section

namespace Cert.SpecTerms

open Cert.ReferenceIdeal Cert.Stages Idealize.ShloMosaic

/-- The embedding as a function of the arguments, in the specification's terms: the dense stages as whole-array
    functions, the aggregations the shared host stages. -/
def embSpec (x : FVec Ideal S100000x128 .f32) (ei : IVec S2x1600000 32) (w1 : FVec Ideal S128x128 .f32) (r1 : FVec Ideal S1x128 .f32)
    (w2 : FVec Ideal S128x64 .f32) (r2 : FVec Ideal S1x64 .f32) : FVec Ideal S100000x64 .f32 :=
  Cert.Spec.addRow (agg64 (F := Ideal) (Cert.Spec.proj (Cert.Spec.biasRelu (agg128 (F := Ideal) (Cert.Spec.proj x w1) (srcIdx ei) (dstIdx ei) (edgeNorm (F := Ideal) ei)) r1) w2)
    (srcIdx ei) (dstIdx ei) (edgeNorm (F := Ideal) ei)) r2

/-- The log-probabilities as a function of the embedding, in the specification's terms. -/
def logpSpec (e : FVec Ideal S100000x64 .f32) (wl : FVec Ideal S64x40 .f32) (rl : FVec Ideal S1x40 .f32) : FVec Ideal S100000x40 .f32 :=
  Cert.Spec.logSoftmaxRows (Cert.Spec.addRow (Cert.Spec.proj e wl) rl)

end Cert.SpecTerms

end
-- ==== Proof.KernelValue.lean ====
/-
  What the kernel program computes, as functions of the arguments.

  Each kernel's output is the whole-array function of the arrays it is entered with (the three kernel modules), and the
  arrays a kernel is entered with are the shared host stages of the arguments and of the kernel before it (the chain
  module). Composed: the embedding and the log-probabilities the run ends with are the specification's terms of the
  arguments, the bias vectors recast as rows.
-/
import proofs.«161931_j5781025980782_1_alg».proof.Proof.Chain
import proofs.«161931_j5781025980782_1_alg».proof.Proof.Region0
import proofs.«161931_j5781025980782_1_alg».proof.Proof.Region1
import proofs.«161931_j5781025980782_1_alg».proof.Proof.Region2
import proofs.«161931_j5781025980782_1_alg».proof.Proof.SpecTerms

noncomputable section

namespace Cert.KernelIdeal.KernelValue

open Cert.KernelIdeal Cert.KernelIdeal.Gen Cert.Stages Cert.SpecTerms
open Idealize.ShloMosaic Idealize.ShloMosaic.TcCoe Idealize.SL.Sem

variable (m : (ℓ : Loc nD τ sig) → Buf (Elt Ideal) ℓ) (ρ : Dev nD → PrngReg) (c : Dev nD)

/-! ## The edge stages reach every stretch unchanged -/

theorem src4 : W4 m ρ c (Proc.devRef .tc main_v3) = srcIdx (m ((c : Thread nD τ).loc main_arg1)) := (Chain.W4_main_v3 m ρ c).trans (Chain.W3_src m ρ c)
theorem dst4 : W4 m ρ c (Proc.devRef .tc main_v6) = dstIdx (m ((c : Thread nD τ).loc main_arg1)) := (Chain.W4_main_v6 m ρ c).trans (Chain.W3_dst m ρ c)
theorem norm4 : W4 m ρ c (Proc.devRef .tc main_v29) = edgeNorm (F := Ideal) (m ((c : Thread nD τ).loc main_arg1)) := (Chain.W4_main_v29 m ρ c).trans (Chain.W3_norm m ρ c)
theorem src6 : W6 m ρ c (Proc.devRef .tc main_v3) = srcIdx (m ((c : Thread nD τ).loc main_arg1)) := ((Chain.W6_main_v3 m ρ c).trans (Chain.W5_main_v3 m ρ c)).trans (src4 m ρ c)
theorem dst6 : W6 m ρ c (Proc.devRef .tc main_v6) = dstIdx (m ((c : Thread nD τ).loc main_arg1)) := ((Chain.W6_main_v6 m ρ c).trans (Chain.W5_main_v6 m ρ c)).trans (dst4 m ρ c)
theorem norm6 : W6 m ρ c (Proc.devRef .tc main_v29) = edgeNorm (F := Ideal) (m ((c : Thread nD τ).loc main_arg1)) := ((Chain.W6_main_v29 m ρ c).trans (Chain.W5_main_v29 m ρ c)).trans (norm4 m ρ c)

/-! ## The arguments reach the kernels unchanged -/

theorem arg3_4 : W4 m ρ c (Proc.devRef .tc main_arg3) = (m ((c : Thread nD τ).loc main_arg3)) := (Chain.W4_main_arg3 m ρ c).trans (Chain.W3_arg3 m ρ c)
theorem arg4_5 : W5 m ρ c (Proc.devRef .tc main_arg4) = (m ((c : Thread nD τ).loc main_arg4)) := ((Chain.W5_main_arg4 m ρ c).trans (Chain.W4_main_arg4 m ρ c)).trans (Chain.W3_arg4 m ρ c)
theorem arg5_6 : W6 m ρ c (Proc.devRef .tc main_arg5) = (m ((c : Thread nD τ).loc main_arg5)) :=
  (((Chain.W6_main_arg5 m ρ c).trans (Chain.W5_main_arg5 m ρ c)).trans (Chain.W4_main_arg5 m ρ c)).trans (Chain.W3_arg5 m ρ c)
theorem arg6_6 : W6 m ρ c (Proc.devRef .tc main_arg6) = (m ((c : Thread nD τ).loc main_arg6)) :=
  (((Chain.W6_main_arg6 m ρ c).trans (Chain.W5_main_arg6 m ρ c)).trans (Chain.W4_main_arg6 m ρ c)).trans (Chain.W3_arg6 m ρ c)
theorem arg7_6 : W6 m ρ c (Proc.devRef .tc main_arg7) = (m ((c : Thread nD τ).loc main_arg7)) :=
  (((Chain.W6_main_arg7 m ρ c).trans (Chain.W5_main_arg7 m ρ c)).trans (Chain.W4_main_arg7 m ρ c)).trans (Chain.W3_arg7 m ρ c)

/-! ## The three kernels' outputs -/

/-- The first kernel's output is x · W1. -/
theorem h1 : W4 m ρ c (Proc.devRef .tc main_v30) = Cert.Spec.proj (m ((c : Thread nD τ).loc main_arg0)) (m ((c : Thread nD τ).loc main_arg2)) :=
  (W4_arr m ρ c 2).trans ((Region0.value (V3 m ρ) c).trans
    (congrArg₂ (Cert.Spec.proj (N := 100000) (K := 128) (M := 128)) (Chain.W3_arg0 m ρ c) (Chain.W3_arg2 m ρ c)))

/-- The second kernel's features: x · W1 aggregated. -/
theorem a1 : W5 m ρ c (Proc.devRef .tc main_v43)
    = agg128 (F := Ideal) (Cert.Spec.proj (m ((c : Thread nD τ).loc main_arg0)) (m ((c : Thread nD τ).loc main_arg2))) (srcIdx (m ((c : Thread nD τ).loc main_arg1))) (dstIdx (m ((c : Thread nD τ).loc main_arg1))) (edgeNorm (F := Ideal) (m ((c : Thread nD τ).loc main_arg1))) := by
  rw [Chain.W5_agg, h1, src4, dst4, norm4]

/-- The second kernel's bias row. -/
theorem r1 : W5 m ρ c (Proc.devRef .tc main_v44) = shapeCast S1x128 (m ((c : Thread nD τ).loc main_arg3)) shapeCasts_S128_S1x128 := by
  rw [Chain.W5_row, arg3_4]

/-- The second kernel's output is relu (a1 + b1) · W2. -/
theorem h2 : W6 m ρ c (Proc.devRef .tc main_v45)
    = Cert.Spec.proj (Cert.Spec.biasRelu (agg128 (F := Ideal) (Cert.Spec.proj (m ((c : Thread nD τ).loc main_arg0)) (m ((c : Thread nD τ).loc main_arg2))) (srcIdx (m ((c : Thread nD τ).loc main_arg1))) (dstIdx (m ((c : Thread nD τ).loc main_arg1))) (edgeNorm (F := Ideal) (m ((c : Thread nD τ).loc main_arg1))))
        (shapeCast S1x128 (m ((c : Thread nD τ).loc main_arg3)) shapeCasts_S128_S1x128)) (m ((c : Thread nD τ).loc main_arg4)) :=
  (W6_arr m ρ c 3).trans ((Region1.value (V5 m ρ) c).trans
    (congrArg₂ (Cert.Spec.proj (N := 100000) (K := 128) (M := 64))
      (congrArg₂ (Cert.Spec.biasRelu (N := 100000) (M := 128)) (a1 m ρ c) (r1 m ρ c)) (arg4_5 m ρ c)))

/-- The third kernel's features: the second kernel's output aggregated. -/
theorem a2 : W7 m ρ c (Proc.devRef .tc main_v58)
    = agg64 (F := Ideal) (Cert.Spec.proj (Cert.Spec.biasRelu (agg128 (F := Ideal) (Cert.Spec.proj (m ((c : Thread nD τ).loc main_arg0)) (m ((c : Thread nD τ).loc main_arg2))) (srcIdx (m ((c : Thread nD τ).loc main_arg1))) (dstIdx (m ((c : Thread nD τ).loc main_arg1))) (edgeNorm (F := Ideal) (m ((c : Thread nD τ).loc main_arg1))))
        (shapeCast S1x128 (m ((c : Thread nD τ).loc main_arg3)) shapeCasts_S128_S1x128)) (m ((c : Thread nD τ).loc main_arg4))) (srcIdx (m ((c : Thread nD τ).loc main_arg1))) (dstIdx (m ((c : Thread nD τ).loc main_arg1))) (edgeNorm (F := Ideal) (m ((c : Thread nD τ).loc main_arg1))) := by
  rw [Chain.W7_agg, h2, src6, dst6, norm6]

/-- The third kernel's bias rows and weights. -/
theorem r2 : W7 m ρ c (Proc.devRef .tc main_v59) = shapeCast S1x64 (m ((c : Thread nD τ).loc main_arg5)) shapeCasts_S64_S1x64 := by
  rw [Chain.W7_row2, arg5_6]
theorem rl : W7 m ρ c (Proc.devRef .tc main_v60) = shapeCast S1x40 (m ((c : Thread nD τ).loc main_arg7)) shapeCasts_S40_S1x40 := by
  rw [Chain.W7_rowl, arg7_6]
theorem wl : W7 m ρ c (Proc.devRef .tc main_arg6) = (m ((c : Thread nD τ).loc main_arg6)) := (Chain.W7_arg6 m ρ c).trans (arg6_6 m ρ c)

/-- The embedding the run ends with, as the specification's term of the arguments. -/
theorem emb_val : (dat2 (V7 m ρ) c).arrAt 4 cfg2.N
    = embSpec (m ((c : Thread nD τ).loc main_arg0)) (m ((c : Thread nD τ).loc main_arg1)) (m ((c : Thread nD τ).loc main_arg2)) (shapeCast S1x128 (m ((c : Thread nD τ).loc main_arg3)) shapeCasts_S128_S1x128) (m ((c : Thread nD τ).loc main_arg4)) (shapeCast S1x64 (m ((c : Thread nD τ).loc main_arg5)) shapeCasts_S64_S1x64) :=
  (Region2.value_emb (V7 m ρ) c).trans
    (congrArg₂ (Cert.Spec.addRow (N := 100000) (M := 64)) (a2 m ρ c) (r2 m ρ c))

/-- The log-probabilities the run ends with, as the specification's term of the embedding. -/
theorem logp_val : (dat2 (V7 m ρ) c).arrAt 5 cfg2.N
    = logpSpec (embSpec (m ((c : Thread nD τ).loc main_arg0)) (m ((c : Thread nD τ).loc main_arg1)) (m ((c : Thread nD τ).loc main_arg2)) (shapeCast S1x128 (m ((c : Thread nD τ).loc main_arg3)) shapeCasts_S128_S1x128) (m ((c : Thread nD τ).loc main_arg4)) (shapeCast S1x64 (m ((c : Thread nD τ).loc main_arg5)) shapeCasts_S64_S1x64))
        (m ((c : Thread nD τ).loc main_arg6)) (shapeCast S1x40 (m ((c : Thread nD τ).loc main_arg7)) shapeCasts_S40_S1x40) :=
  (Region2.value_logp (V7 m ρ) c).trans
    (congrArg (Cert.Spec.logSoftmaxRows (N := 100000) (M := 40))
      (congrArg₂ (Cert.Spec.addRow (N := 100000) (M := 40))
        (congrArg₂ (Cert.Spec.proj (N := 100000) (K := 64) (M := 40))
          (congrArg₂ (Cert.Spec.addRow (N := 100000) (M := 64)) (a2 m ρ c) (r2 m ρ c)) (wl m ρ c))
        (rl m ρ c)))

end Cert.KernelIdeal.KernelValue

end
-- ==== Proof.RefValue.lean ====
/-
  What the reference computes, stage by stage.

  The reference's run ends with each result buffer at the fold of its operations over the launch contents. Read through
  the fold, the embedding is
      agg64 (relu (agg128 (x · W1) + b1) · W2) + b2
  and the log-probabilities are the log-softmax along the rows of  embedding · Wl + bl, with the aggregations, the edge
  indices and the edge norms the shared host stages. The dense stages are kept in the reference's own spelling here
  (`refH1`, `refH2`, `refEmb`, `refLogits`, `refLogp`).
-/
import proofs.«161931_j5781025980782_1_alg».proof.Proof.RefRun
import proofs.«161931_j5781025980782_1_alg».proof.Proof.Stages
import proofs.«161931_j5781025980782_1_alg».proof.Proof.LibLogSoftmax
import proofs.«161931_j5781025980782_1_alg».proof.Proof.LibJoinPair
import proofs.«161931_j5781025980782_1_alg».proof.Proof.LibTypedRef

noncomputable section

namespace Cert.RefValue

open Cert.ReferenceIdeal Cert.ReferenceIdeal.Gen Cert.ReferenceIdeal.Value Cert.Stages
open Idealize.ShloMosaic Idealize.ShloMosaic.TcCoe Idealize.SL.Sem Idealize.ShloMosaic.StableHlo

variable {F : FTy → Type} [FloatOps F]

/-- The first projection, x · W1. -/
def refH1 (x : FVec F S100000x128 .f32) (w : FVec F S128x128 .f32) : FVec F S100000x128 .f32 :=
  Host.dotGeneral dot_S100000x128_S128x128_S100000x128_1_0_0_1_n_n none x w

/-- The second projection, relu (a + b1) · W2. -/
def refH2 (a : FVec F S100000x128 .f32) (b : FVec F S128 .f32) (w : FVec F S128x64 .f32) : FVec F S100000x64 .f32 :=
  Host.dotGeneral dot_S100000x128_S128x64_S100000x64_1_0_0_1_n_n none
    (maximumf (addf a (broadcastInDim S100000x128 ![0, 1] bcast_S1x128_S100000x128_0_1 (broadcastInDim S1x128 ![1] bcast_S128_S1x128_1 b)))
      (broadcastInDim S100000x128 ![] bcast_S_S100000x128 (constant S_ .f32 0x00000000#32))) w

/-- The embedding, a + b2. -/
def refEmb (a : FVec F S100000x64 .f32) (b : FVec F S64 .f32) : FVec F S100000x64 .f32 :=
  addf a (broadcastInDim S100000x64 ![0, 1] bcast_S1x64_S100000x64_0_1 (broadcastInDim S1x64 ![1] bcast_S64_S1x64_1 b))

/-- The classifier's pre-activations, e · Wl + bl. -/
def refLogits (e : FVec F S100000x64 .f32) (w : FVec F S64x40 .f32) (b : FVec F S40 .f32) : FVec F S100000x40 .f32 :=
  addf (Host.dotGeneral dot_S100000x64_S64x40_S100000x40_1_0_0_1_n_n none e w)
    (broadcastInDim S100000x40 ![0, 1] bcast_S1x40_S100000x40_0_1 (broadcastInDim S1x40 ![1] bcast_S40_S1x40_1 b))

/-- The log-softmax along the rows, as the reference's operations compose it. -/
def refLogp (z : FVec F S100000x40 .f32) : FVec F S100000x40 .f32 :=
  subf (subf z (broadcastInDim S100000x40 ![0, 1] bcast_S100000x1_S100000x40_0_1 (broadcastInDim S100000x1 ![0] bcast_S100000_S100000x1_0
      (maximumf (broadcastInDim S100000 ![] bcast_S_S100000 (constant S_ .f32 0xFF800000#32))
        (Host.reduce FloatOps.maximumf z (constant S_ .f32 0xFF800000#32) reducesTo_S100000x40_S100000_d1 h_S_)))))
    (broadcastInDim S100000x40 ![0, 1] bcast_S100000x1_S100000x40_0_1 (Host.log (broadcastInDim S100000x1 ![0] bcast_S100000_S100000x1_0
      (Host.reduceAdd (Host.exp (subf z (broadcastInDim S100000x40 ![0, 1] bcast_S100000x1_S100000x40_0_1 (broadcastInDim S100000x1 ![0] bcast_S100000_S100000x1_0
        (maximumf (broadcastInDim S100000 ![] bcast_S_S100000 (constant S_ .f32 0xFF800000#32))
          (Host.reduce FloatOps.maximumf z (constant S_ .f32 0xFF800000#32) reducesTo_S100000x40_S100000_d1 h_S_))))))
        (constant S_ .f32 0x00000000#32) reducesTo_S100000x40_S100000_d1 h_S_))))

/-- At the exact values this is the log-softmax term of the row-function module. -/
theorem refLogp_eq (z : FVec Ideal S100000x40 .f32) : refLogp z
    = Cert.LogSoftmax.hostLogSoftmaxTerm z reducesTo_S100000x40_S100000_d1 h_S_ bcast_S_S100000 bcast_S100000_S100000x1_0 bcast_S100000x1_S100000x40_0_1 := rfl

/-- The reference's embedding as a function of the arguments. -/
def embOf (x : FVec F S100000x128 .f32) (ei : IVec S2x1600000 32) (w1 : FVec F S128x128 .f32) (b1 : FVec F S128 .f32)
    (w2 : FVec F S128x64 .f32) (b2 : FVec F S64 .f32) : FVec F S100000x64 .f32 :=
  refEmb (agg64 (refH2 (agg128 (refH1 x w1) (srcIdx ei) (dstIdx ei) (edgeNorm ei)) b1 w2) (srcIdx ei) (dstIdx ei) (edgeNorm ei)) b2

variable (m : (ℓ : Loc nD τ sig) → Buf (Elt F) ℓ) (c : Dev nD)

set_option maxRecDepth 8192 in
set_option maxHeartbeats 4000000 in
/-- The embedding buffer after the reference's operations. -/
theorem emb_eq : after (ops (F := F)) (launchContents m c) (Proc.devRef .tc main_v64)
    = embOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  after_results_simp
  simp only [Cert.JoinPair.concatenate_pair_eq]
  after_results_simp
  simp only [Cert.TypedRef.ofBuf_toBuf]
  rfl

set_option maxRecDepth 8192 in
set_option maxHeartbeats 4000000 in
/-- The log-probability buffer after the reference's operations. -/
theorem logp_eq : after (ops (F := F)) (launchContents m c) (Proc.devRef .tc main_v69)
    = refLogp (refLogits (embOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)))
        (m ((c.tc : Thread nD τ).loc main_arg6)) (m ((c.tc : Thread nD τ).loc main_arg7))) := by
  after_results_simp
  simp only [Cert.JoinPair.concatenate_pair_eq]
  after_results_simp
  simp only [Cert.TypedRef.ofBuf_toBuf]
  rfl

end Cert.RefValue

end
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«161931_j5781025980782_1_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.LibBiasRow.lean ====
/-
  A bias vector as a row, read at an index: a vector `[b]` placed as the one row of `[1, b]` reads its entry of the
  column; a row `[1, b]` repeated down `a` rows reads, at `(p, q)`, its entry `q`. (A `broadcast_in_dim` reads the
  operand's unit axes at coordinate zero and its other axes at the result's coordinate on the axis they are sent to.)
-/
import Idealize.ShloMosaic.Lib.ValueIdx
import Idealize.ShloMosaic.Lib.Pipeline.Value

noncomputable section

namespace Cert.BiasRow

open Idealize.ShloMosaic Idealize.ShloMosaic.ValueIdx

variable {α : Type}

/-- A vector `[b]` placed as the row of `[1, b]` reads, at `(u, q)`, its entry `q`. -/
theorem row_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row `[1, b]` repeated down `a` rows reads, at `(p, q)`, the row's entry `q`. -/
theorem down_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

end Cert.BiasRow

end
-- ==== Proof.Bridge.lean ====
/-
  The reference's dense stages are the whole-array functions of the specification, entry by entry, at the exact values.

  The host's `dot_general` at (p, q) is the plain sum over the contracted axis; a bias vector placed as a row and repeated
  down the rows reads, at (p, q), its entry q, which is what the recast row [1, n] holds at (0, q); the host's clip at
  zero is the maximum with the zero word; and the host's log-softmax at (p, q) is the row function of row p. Nothing
  here needs an entry to be finite.
-/
import proofs.«161931_j5781025980782_1_alg».proof.Proof.RefValue
import proofs.«161931_j5781025980782_1_alg».proof.Proof.SpecTerms
import proofs.«161931_j5781025980782_1_alg».proof.Proof.LibDotSums
import proofs.«161931_j5781025980782_1_alg».proof.Proof.LibBiasRow
import proofs.«161931_j5781025980782_1_alg».proof.Proof.LibBroadcastInDim
import proofs.«161931_j5781025980782_1_alg».proof.Proof.LibLogSoftmax
import Idealize.ShloMosaic.Lib.ValueLayout

open scoped BigOperators

noncomputable section

namespace Cert.Bridge

open Cert.ReferenceIdeal Cert.ReferenceIdeal.Gen Cert.RefValue Cert.Stages Cert.SpecTerms
open Idealize.ShloMosaic Idealize.ShloMosaic.ValueIdx

/-- The first projection is the matrix product. -/
theorem h1_eq (x : FVec Ideal S100000x128 .f32) (w : FVec Ideal S128x128 .f32) : refH1 x w = Cert.Spec.proj x w := by
  funext i
  obtain ⟨p, q, rfl⟩ : ∃ (p : Fin 100000) (q : Fin 128), i = ix2 p q := ⟨i 0, i 1, eq_ix2 i⟩
  exact Cert.DotSums.dotGeneral_ix2 dot_S100000x128_S128x128_S100000x128_1_0_0_1_n_n none .single rfl rfl rfl rfl rfl rfl rfl rfl x w p q

/-- A bias vector placed as a row and repeated down the rows reads, at (p, q), what the recast row holds at (0, q). -/
theorem biasDown_apply {n a : ℕ} (b : (⟨1, ![n]⟩ : Shape).Idx → EReal) (hr : (⟨1, ![n]⟩ : Shape).BroadcastsInDim ⟨2, ![1, n]⟩ ![1])
    (hd : (⟨2, ![1, n]⟩ : Shape).BroadcastsInDim ⟨2, ![a, n]⟩ ![0, 1]) (hc : (⟨1, ![n]⟩ : Shape).ShapeCasts ⟨2, ![1, n]⟩)
    (p : Fin a) (q : Fin n) :
    broadcastInDim ⟨2, ![a, n]⟩ ![0, 1] hd (broadcastInDim ⟨2, ![1, n]⟩ ![1] hr b) (ix2 p q) = shapeCast ⟨2, ![1, n]⟩ b hc (ix2 (0 : Fin 1) q) := by
  rw [Cert.BiasRow.down_apply, Cert.BiasRow.row_apply, shapeCast_a_1a_apply]

/-- The second projection is relu (a + b1) · W2 with the bias as a recast row. -/
theorem h2_eq (a : FVec Ideal S100000x128 .f32) (b : FVec Ideal S128 .f32) (w : FVec Ideal S128x64 .f32) (hc : S128.ShapeCasts S1x128) :
    refH2 a b w = Cert.Spec.proj (Cert.Spec.biasRelu a (shapeCast S1x128 b hc)) w := by
  funext i
  obtain ⟨p, q, rfl⟩ : ∃ (p : Fin 100000) (q : Fin 64), i = ix2 p q := ⟨i 0, i 1, eq_ix2 i⟩
  refine (Cert.DotSums.dotGeneral_ix2 dot_S100000x128_S128x64_S100000x64_1_0_0_1_n_n none .single rfl rfl rfl rfl rfl rfl rfl rfl _ w p q).trans ?_
  refine Finset.sum_congr rfl fun k _ => ?_
  refine congrArg (· * w (ix2 k q)) ?_
  show max (a (ix2 p k) + broadcastInDim S100000x128 ![0, 1] bcast_S1x128_S100000x128_0_1 (broadcastInDim S1x128 ![1] bcast_S128_S1x128_1 b) (ix2 p k))
      (broadcastInDim S100000x128 ![] bcast_S_S100000x128 (constant S_ .f32 0x00000000#32) (ix2 p k))
    = max (a (ix2 p k) + shapeCast S1x128 b hc (ix2 (0 : Fin 1) k)) Cert.Spec.zero32
  rw [biasDown_apply b _ _ hc p k, Cert.BroadcastInDim.scalar_apply]
  rfl

/-- The reference's embedding stage is a + b2 with the bias as a recast row. -/
theorem emb_eq (a : FVec Ideal S100000x64 .f32) (b : FVec Ideal S64 .f32) (hc : S64.ShapeCasts S1x64) :
    refEmb a b = Cert.Spec.addRow a (shapeCast S1x64 b hc) := by
  funext i
  obtain ⟨p, q, rfl⟩ : ∃ (p : Fin 100000) (q : Fin 64), i = ix2 p q := ⟨i 0, i 1, eq_ix2 i⟩
  show a (ix2 p q) + broadcastInDim S100000x64 ![0, 1] bcast_S1x64_S100000x64_0_1 (broadcastInDim S1x64 ![1] bcast_S64_S1x64_1 b) (ix2 p q)
    = a (ix2 p q) + shapeCast S1x64 b hc (ix2 (0 : Fin 1) q)
  rw [biasDown_apply b _ _ hc p q]

/-- The classifier's pre-activations are e · Wl + bl with the bias as a recast row. -/
theorem logits_eq (e : FVec Ideal S100000x64 .f32) (w : FVec Ideal S64x40 .f32) (b : FVec Ideal S40 .f32) (hc : S40.ShapeCasts S1x40) :
    refLogits e w b = Cert.Spec.addRow (Cert.Spec.proj e w) (shapeCast S1x40 b hc) := by
  funext i
  obtain ⟨p, q, rfl⟩ : ∃ (p : Fin 100000) (q : Fin 40), i = ix2 p q := ⟨i 0, i 1, eq_ix2 i⟩
  show Host.dotGeneral dot_S100000x64_S64x40_S100000x40_1_0_0_1_n_n none e w (ix2 p q)
      + broadcastInDim S100000x40 ![0, 1] bcast_S1x40_S100000x40_0_1 (broadcastInDim S1x40 ![1] bcast_S40_S1x40_1 b) (ix2 p q)
    = (∑ k : Fin 64, e (ix2 p k) * w (ix2 k q)) + shapeCast S1x40 b hc (ix2 (0 : Fin 1) q)
  rw [biasDown_apply b _ _ hc p q]
  exact congrArg (· + shapeCast S1x40 b hc (ix2 (0 : Fin 1) q))
    (Cert.DotSums.dotGeneral_ix2 dot_S100000x64_S64x40_S100000x40_1_0_0_1_n_n none .single rfl rfl rfl rfl rfl rfl rfl rfl e w p q)

/-- The reference's log-softmax is the row function along each row. -/
theorem logp_eq (z : FVec Ideal S100000x40 .f32) : refLogp z = Cert.Spec.logSoftmaxRows z := by
  funext i
  obtain ⟨p, q, rfl⟩ : ∃ (p : Fin 100000) (q : Fin 40), i = ix2 p q := ⟨i 0, i 1, eq_ix2 i⟩
  rw [refLogp_eq]
  exact Cert.LogSoftmax.hostLogSoftmax_apply z reducesTo_S100000x40_S100000_d1 h_S_ bcast_S_S100000 bcast_S100000_S100000x1_0
    bcast_S100000x1_S100000x40_0_1 p q

/-- The reference's embedding is the specification's, the bias vectors recast as rows. -/
theorem embOf_eq (x : FVec Ideal S100000x128 .f32) (ei : IVec S2x1600000 32) (w1 : FVec Ideal S128x128 .f32) (b1 : FVec Ideal S128 .f32)
    (w2 : FVec Ideal S128x64 .f32) (b2 : FVec Ideal S64 .f32) (h1 : S128.ShapeCasts S1x128) (h2 : S64.ShapeCasts S1x64) :
    embOf x ei w1 b1 w2 b2 = embSpec x ei w1 (shapeCast S1x128 b1 h1) w2 (shapeCast S1x64 b2 h2) := by
  unfold embOf embSpec
  rw [h1_eq, h2_eq _ _ _ h1, emb_eq _ _ h2]

/-- The reference's log-probabilities are the specification's. -/
theorem logpOf_eq (e : FVec Ideal S100000x64 .f32) (wl : FVec Ideal S64x40 .f32) (bl : FVec Ideal S40 .f32) (hl : S40.ShapeCasts S1x40) :
    refLogp (refLogits e wl bl) = logpSpec e wl (shapeCast S1x40 bl hl) := by
  unfold logpSpec
  rw [logits_eq _ _ _ hl, logp_eq]

end Cert.Bridge

end
-- ==== Proof.lean ====
/-
  A two-layer graph convolution with a linear classifier and a log-softmax, as three tiled kernels among host
  aggregations, against the same network written with whole-array operations.

  Both programs compute, from node features x, an edge list and the weights,
      embedding = agg (relu (agg (x · W1) + b1) · W2) + b2,      log_probs = log_softmax (embedding · Wl + bl),
  where agg gathers the source rows along the edges (self loops added), scales each by the symmetric degree
  normalization and scatter-adds onto the target rows. The edge indices, the norms and the two aggregations are the
  same host operations in both programs and are carried as opaque functions. What differs is how the dense stages are
  formed: the kernel program forms x · W1, relu (· + b1) · W2 and the last stage (bias, classifier, log-softmax) in row
  blocks of 10000 rows with products accumulated from zero and reductions along the lanes, the reference with whole
  `dot_general`s, broadcasts and row reductions. Over the extended reals each stage is the same function entry by entry
  (a sum over the contracted axis; a bias row read at its column; a row maximum folded from minus infinity, for which
  minus infinity is neutral; a row sum), so the two results agree for every input, finite or not.

  The kernel program's run and its three kernels' outputs: KernelRun, Region0, Region1, Region2; the buffers between them:
  Chain, KernelValue. The reference's run and value: RefRun, RefValue. The stage-by-stage agreement: Bridge.
-/
import proofs.«161931_j5781025980782_1_alg».proof.Defs
import proofs.«161931_j5781025980782_1_alg».proof.Proof.Gen.Kernel
import proofs.«161931_j5781025980782_1_alg».proof.Proof.Gen.Kernel.Skeleton
import proofs.«161931_j5781025980782_1_alg».proof.Proof.Gen.Kernel.Launch
import proofs.«161931_j5781025980782_1_alg».proof.Proof.Gen.Kernel.Points
import proofs.«161931_j5781025980782_1_alg».proof.Proof.Gen.Kernel.Frame
import proofs.«161931_j5781025980782_1_alg».proof.Proof.Gen.KernelIdeal
import proofs.«161931_j5781025980782_1_alg».proof.Proof.Gen.KernelIdeal.Skeleton
import proofs.«161931_j5781025980782_1_alg».proof.Proof.Gen.KernelIdeal.Launch
import proofs.«161931_j5781025980782_1_alg».proof.Proof.Gen.KernelIdeal.Points
import proofs.«161931_j5781025980782_1_alg».proof.Proof.Gen.KernelIdeal.Frame
import proofs.«161931_j5781025980782_1_alg».proof.Proof.Gen.ReferenceIdeal
import proofs.«161931_j5781025980782_1_alg».proof.Proof.Gen.Pre_finite_inputs
import proofs.«161931_j5781025980782_1_alg».proof.Proof.KernelRun
import proofs.«161931_j5781025980782_1_alg».proof.Proof.KernelValue
import proofs.«161931_j5781025980782_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The idealized reference runs and leaves its arguments as launched: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- At the exact values the two programs, run from memories that agree on the arguments, end with equal
    log-probabilities and equal embeddings: both are the specification's terms of the arguments. -/
theorem algebraic : Cert.algebraic_KernelIdeal_ReferenceIdeal := by
  intro m ρ m' ρ' _ hagree
  refine ⟨fun c => Cert.SpecTerms.logpSpec (Cert.SpecTerms.embSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (shapeCast Cert.KernelIdeal.S1x128 (m ((c.tc : Thread Cert.KernelIdeal.nD Cert.KernelIdeal.τ).loc Cert.KernelIdeal.main_arg3)) Cert.KernelIdeal.Gen.shapeCasts_S128_S1x128) (m ((c.tc : Thread Cert.KernelIdeal.nD Cert.KernelIdeal.τ).loc Cert.KernelIdeal.main_arg4))
      (shapeCast Cert.KernelIdeal.S1x64 (m ((c.tc : Thread Cert.KernelIdeal.nD Cert.KernelIdeal.τ).loc Cert.KernelIdeal.main_arg5)) Cert.KernelIdeal.Gen.shapeCasts_S64_S1x64)) (m ((c.tc : Thread Cert.KernelIdeal.nD Cert.KernelIdeal.τ).loc Cert.KernelIdeal.main_arg6))
      (shapeCast Cert.KernelIdeal.S1x40 (m ((c.tc : Thread Cert.KernelIdeal.nD Cert.KernelIdeal.τ).loc Cert.KernelIdeal.main_arg7)) Cert.KernelIdeal.Gen.shapeCasts_S40_S1x40),
    fun c => (Cert.SpecTerms.embSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (shapeCast Cert.KernelIdeal.S1x128 (m ((c.tc : Thread Cert.KernelIdeal.nD Cert.KernelIdeal.τ).loc Cert.KernelIdeal.main_arg3)) Cert.KernelIdeal.Gen.shapeCasts_S128_S1x128) (m ((c.tc : Thread Cert.KernelIdeal.nD Cert.KernelIdeal.τ).loc Cert.KernelIdeal.main_arg4))
      (shapeCast Cert.KernelIdeal.S1x64 (m ((c.tc : Thread Cert.KernelIdeal.nD Cert.KernelIdeal.τ).loc Cert.KernelIdeal.main_arg5)) Cert.KernelIdeal.Gen.shapeCasts_S64_S1x64)), ?_, ?_⟩
  · exact (θ_run Cert.KernelIdeal.defs _ _).mono
      (fun r h c => ⟨(h c).1.trans (Cert.KernelIdeal.KernelValue.logp_val m ρ c),
        (h c).2.1.trans (Cert.KernelIdeal.KernelValue.emb_val m ρ c), (h c).2.2⟩)
      (Cert.KernelIdeal.KernelRun.run_results (F := Ideal) m ρ)
  · refine (θ_run Cert.ReferenceIdeal.defs _ _).mono (fun r h c => ?_) (Cert.ReferenceIdeal.Value.run (F := Ideal) m' ρ')
    obtain ⟨g0, g1, g2, g3, g4, g5, g6, g7⟩ := hagree c
    refine ⟨(h c).1.trans ?_, (h c).2.1.trans ?_, (h c).2.2⟩
    · rw [Cert.RefValue.logp_eq, g0, g1, g2, g3, g4, g5, g6, g7,
        Cert.Bridge.embOf_eq _ _ _ _ _ _ Cert.KernelIdeal.Gen.shapeCasts_S128_S1x128 Cert.KernelIdeal.Gen.shapeCasts_S64_S1x64,
        Cert.Bridge.logpOf_eq _ _ _ Cert.KernelIdeal.Gen.shapeCasts_S40_S1x40]
    · rw [Cert.RefValue.emb_eq, g0, g1, g2, g3, g4, g5,
        Cert.Bridge.embOf_eq _ _ _ _ _ _ Cert.KernelIdeal.Gen.shapeCasts_S128_S1x128 Cert.KernelIdeal.Gen.shapeCasts_S64_S1x64]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
